-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S128 .f32) (main_arg8 : FVec F S256x128 .f32) (main_arg9 : FVec F S128 .f32) (main_arg10 : FVec F S256x2 .f32) (main_arg11 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x2 .f32 := Host.absf main_arg10
  let main_cst_18 : FVec F S_ .f32 := constant S_ .f32 0x7F800000#32
  let main_v50 : FVec F S256x2 .f32 := broadcastInDim S256x2 ![] bcast_S_S256x2 main_cst_18
  fn_part3 (F := F) main_arg11 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S256x128 .f32) (main_arg9 : FVec F S128 .f32) (main_arg10 : FVec F S256x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S256x128 .f32) (main_arg9 : FVec F S128 .f32) (main_arg10 : FVec F S256x2 .f32) (main_arg11 : FVec F S2 .f32) (main_arg12 : IVec S1000000 32) (main_arg13 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S100000x1 : Shape := ⟨2, ![100000, 1]⟩
abbrev S1000000x128 : Shape := ⟨2, ![1000000, 128]⟩
abbrev S50000x1 : Shape := ⟨2, ![50000, 1]⟩
abbrev S128x2 : Shape := ⟨2, ![128, 2]⟩
abbrev S50000x2 : Shape := ⟨2, ![50000, 2]⟩
abbrev S5000x128 : Shape := ⟨2, ![5000, 128]⟩
abbrev S5000x1 : Shape := ⟨2, ![5000, 1]⟩
abbrev S5000x2 : Shape := ⟨2, ![5000, 2]⟩
abbrev S1x128 : Shape := ⟨2, ![1, 128]⟩
abbrev S100000x2 : Shape := ⟨2, ![100000, 2]⟩
abbrev S1000000x2 : Shape := ⟨2, ![1000000, 2]⟩
abbrev S1x2 : Shape := ⟨2, ![1, 2]⟩

abbrev nBuf : Space → Nat
  | .hbm => 112
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x2, .f32⟩
  | .hbm, ⟨11, _⟩ => ⟨S2, .f32⟩
  | .hbm, ⟨12, _⟩ => ⟨S1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1000000, .f32⟩
  | .hbm, ⟨26, _⟩ => ⟨S_, .f32⟩
  | .hbm, ⟨27, _⟩ => ⟨S50000, .f32⟩
  | .hbm, ⟨28, _⟩ => ⟨S1000000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S_, .f32⟩
  | .hbm, ⟨47, _⟩ => ⟨S50000x128, .f32⟩
  | .hbm, ⟨48, _⟩ => ⟨S1000000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x128, .f32⟩
  | .hbm, ⟨62, _⟩ => ⟨S_, .f32⟩
  | .hbm, ⟨63, _⟩ => ⟨S100000x128, .f32⟩
  | .hbm, ⟨64, _⟩ => ⟨S1000000x1, .i32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x2, .f32⟩
  | .hbm, ⟨71, _⟩ => ⟨S128x2, .f32⟩
  | .hbm, ⟨72, _⟩ => ⟨S50000x1, .f32⟩
  | .hbm, ⟨73, _⟩ => ⟨S50000x2, .f32⟩
  | .hbm, ⟨74, _⟩ => ⟨S100000x1, .f32⟩
  | .hbm, ⟨75, _⟩ => ⟨S100000x2, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x2, .f32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x2, .f32⟩
  | .hbm, ⟨94, _⟩ => ⟨S1000000x2, .f32⟩
  | .hbm, ⟨95, _⟩ => ⟨S1x2, .f32⟩
  | .hbm, ⟨96, _⟩ => ⟨S1000000x2, .f32⟩
  | .hbm, ⟨97, _⟩ => ⟨S1000000x2, .f32⟩
  | .hbm, ⟨98, _⟩ => ⟨S_, .f32⟩
  | .hbm, ⟨99, _⟩ => ⟨S1000000, .f32⟩
  | .hbm, ⟨100, _⟩ => ⟨S_, .f32⟩
  | .hbm, ⟨101, _⟩ => ⟨S1000000, .f32⟩
  | .hbm, ⟨102, _⟩ => ⟨S1000000, .f32⟩
  | .hbm, ⟨103, _⟩ => ⟨S1000000x1, .f32⟩
  | .hbm, ⟨104, _⟩ => ⟨S1000000x2, .f32⟩
  | .hbm, ⟨105, _⟩ => ⟨S1000000x2, .f32⟩
  | .hbm, ⟨106, _⟩ => ⟨S1000000x2, .f32⟩
  | .hbm, ⟨107, _⟩ => ⟨S_, .f32⟩
  | .hbm, ⟨108, _⟩ => ⟨S1000000, .f32⟩
  | .hbm, ⟨109, _⟩ => ⟨S1000000x1, .f32⟩
  | .hbm, ⟨110, _⟩ => ⟨S1000000x2, .f32⟩
  | .hbm, ⟨111, _⟩ => ⟨S1000000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128x2, .f32⟩
  | .local _ .vmem, ⟨12, _⟩ => ⟨S5000x2, .f32⟩
  | .local _ .vmem, ⟨13, _⟩ => ⟨S5000x2, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x2, .f32⟩
  | .local _ .vmem, ⟨26, _⟩ => ⟨S5000x2, .f32⟩
  | .local _ .vmem, ⟨27, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  slices_S256x2_S128x2_0_0 : S256x2.Slices ![0, 0] S128x2
  slices_S256x2_S128x2_128_0 : S256x2.Slices ![128, 0] S128x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x2_S5000x2_0_0 : ∀ a, (![0, 0] : Fin 2 → Nat) a + S5000x2.size a ≤ S5000x2.size a
  h_S5000x2 : 0 < S5000x2.numel
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  bcast_S1000000x1_S1000000x2_0_1 : S1000000x1.BroadcastsInDim S1000000x2 (![0, 1] : Fin 2 → Fin S1000000x2.rank)
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  gather_S100000x2_S1000000x1_S1000000x2_1_0_n_n_0_1_12_wf : GatherDims.WF S100000x2 S1000000x1 S1000000x2 [1] [0] [] [0] [] 1 ![1, 2]
  gather_S50000x2_S1000000x1_S1000000x2_1_0_n_n_0_1_12_wf : GatherDims.WF S50000x2 S1000000x1 S1000000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x2.size a ≤ S128x2.size a
  hwx0_8 : ∀ i : grid0.Coords, EltTy.bits .f32 = 32 ∨ (Rect.block (s := S128x2) S128x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x2.size a ≤ S50000x2.size a
  hwx0_9 : ∀ i : grid0.Coords, EltTy.bits .f32 = 32 ∨ (Rect.block (s := S50000x2) S5000x2.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S128x2.size a
  hwx1_8 : ∀ i : grid1.Coords, EltTy.bits .f32 = 32 ∨ (Rect.block (s := S128x2) S128x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x2.size a ≤ S100000x2.size a
  hwx1_9 : ∀ i : grid1.Coords, EltTy.bits .f32 = 32 ∨ (Rect.block (s := S100000x2) S5000x2.size (cc1_transform_9 i) (hinb1_9 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1000000x1_S1000000x2_1_0_n_n_0_1_12 : GatherDims S100000x2 S1000000x1 S1000000x2 where
  offsetDims := [1]
  collapsedSliceDims := [0]
  operandBatchingDims := []
  startIndicesBatchingDims := []
  startIndexMap := [0]
  indexVectorDim := 1
  sliceSizes := ![1, 2]
  wf := gather_S100000x2_S1000000x1_S1000000x2_1_0_n_n_0_1_12_wf
def gather_S50000x2_S1000000x1_S1000000x2_1_0_n_n_0_1_12 : GatherDims S50000x2 S1000000x1 S1000000x2 where
  offsetDims := [1]
  collapsedSliceDims := [0]
  operandBatchingDims := []
  startIndicesBatchingDims := []
  startIndexMap := [0]
  indexVectorDim := 1
  sliceSizes := ![1, 2]
  wf := gather_S50000x2_S1000000x1_S1000000x2_1_0_n_n_0_1_12_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S128x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S5000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S128x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S5000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S100000x1 : Shape := ⟨2, ![100000, 1]⟩
abbrev S1000000x128 : Shape := ⟨2, ![1000000, 128]⟩
abbrev S50000x1 : Shape := ⟨2, ![50000, 1]⟩
abbrev S1x128 : Shape := ⟨2, ![1, 128]⟩
abbrev S100000x256 : Shape := ⟨2, ![100000, 256]⟩
abbrev S50000x256 : Shape := ⟨2, ![50000, 256]⟩
abbrev S1000000x256 : Shape := ⟨2, ![1000000, 256]⟩
abbrev S1000000x2 : Shape := ⟨2, ![1000000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x2, .f32⟩
  | 11 => ⟨S2, .f32⟩
  | 12 => ⟨S1000000, .i32⟩
  | 13 => ⟨S1000000, .i32⟩
  | 14 => ⟨S_, .f32⟩
  | 15 => ⟨S1000000, .f32⟩
  | 16 => ⟨S_, .f32⟩
  | 17 => ⟨S100000, .f32⟩
  | 18 => ⟨S1000000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S1000000, .f32⟩
  | 26 => ⟨S_, .f32⟩
  | 27 => ⟨S50000, .f32⟩
  | 28 => ⟨S1000000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S100000x1, .f32⟩
  | 35 => ⟨S100000x128, .f32⟩
  | 36 => ⟨S100000x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S_, .f32⟩
  | 47 => ⟨S50000x128, .f32⟩
  | 48 => ⟨S1000000x1, .i32⟩
  | 49 => ⟨S50000x128, .f32⟩
  | 50 => ⟨S50000x1, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S50000x1, .f32⟩
  | 58 => ⟨S50000x128, .f32⟩
  | 59 => ⟨S50000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S_, .f32⟩
  | 70 => ⟨S100000x128, .f32⟩
  | 71 => ⟨S1000000x1, .i32⟩
  | 72 => ⟨S100000x128, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .f32⟩
  | 84 => ⟨S50000x128, .f32⟩
  | 85 => ⟨S50000x128, .f32⟩
  | 86 => ⟨S100000x256, .f32⟩
  | 87 => ⟨S100000x128, .f32⟩
  | 88 => ⟨S1x128, .f32⟩
  | 89 => ⟨S100000x128, .f32⟩
  | 90 => ⟨S100000x128, .f32⟩
  | 91 => ⟨S50000x256, .f32⟩
  | 92 => ⟨S50000x128, .f32⟩
  | 93 => ⟨S1x128, .f32⟩
  | 94 => ⟨S50000x128, .f32⟩
  | 95 => ⟨S50000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S1000000x256, .f32⟩
  | 115 => ⟨S1000000x2, .f32⟩
  | 116 => ⟨S1x2, .f32⟩
  | 117 => ⟨S1000000x2, .f32⟩
  | 118 => ⟨S1000000x2, .f32⟩
  | 119 => ⟨S_, .f32⟩
  | 120 => ⟨S1000000, .f32⟩
  | 121 => ⟨S_, .f32⟩
  | 122 => ⟨S1000000, .f32⟩
  | 123 => ⟨S1000000, .f32⟩
  | 124 => ⟨S1000000x1, .f32⟩
  | 125 => ⟨S1000000x2, .f32⟩
  | 126 => ⟨S1000000x2, .f32⟩
  | 127 => ⟨S1000000x2, .f32⟩
  | _ => ⟨S100000x128, .f32⟩

abbrev hbmTy0_1 (i : Nat) : BufTy := match i % 128 with
  | 0 => ⟨S_, .f32⟩
  | 1 => ⟨S1000000, .f32⟩
  | 2 => ⟨S1000000x1, .f32⟩
  | 3 => ⟨S1000000x2, .f32⟩
  | 4 => ⟨S1000000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call0_cst : Ref sig .tc := ⟨.hbm, 80, rfl⟩
abbrev main_call0_v0 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_10 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_16 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  concatenates_S50000x128_S50000x128_S50000x256_d1 : Shape.Concatenates [S50000x128, S50000x128] S50000x256 1
  concatenates_S1000000x128_S1000000x128_S1000000x256_d1 : Shape.Concatenates [S1000000x128, S1000000x128] S1000000x256 1
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  bcast_S1000000x1_S1000000x2_0_1 : S1000000x1.BroadcastsInDim S1000000x2 (![0, 1] : Fin 2 → Fin S1000000x2.rank)
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  dot_S50000x256_S256x128_S50000x128_1_0_0_1_n_n_wf : DotDims.WF S50000x256 S256x128 S50000x128 [1] [0] [0] [1] [] []
  dot_S1000000x256_S256x2_S1000000x2_1_0_0_1_n_n_wf : DotDims.WF S1000000x256 S256x2 S1000000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S1000000x256_S256x2_S1000000x2_1_0_0_1_n_n : DotDims S1000000x256 S256x2 S1000000x2 where
  lhsContracting := [1]
  rhsContracting := [0]
  lhsNonContracting := [0]
  rhsNonContracting := [1]
  lhsBatch := []
  rhsBatch := []
  wf := dot_S1000000x256_S256x2_S1000000x2_1_0_0_1_n_n_wf

class Facts : Prop extends Facts₀ where

variable [Facts]
-- ==== Proof.KRun.lean ====
/-
  THE KERNEL PROGRAM'S RUN, WITH ITS RESULT READ.

  The program is five segments: host operations, the first pallas_call (item nodes, 10 grid points), one host
  operation, the second pallas_call (user nodes, 20 grid points), and the host operations that gather two scores
  per edge and normalise them. The buffer contents at the five boundaries are a fold from the launch memory: W1
  after the first host stretch, W2 after the first region's write-backs, W3, W4, W5 likewise. Every weakly fair
  execution terminates in a state whose unscoped buffers hold W5; here that final state is read at the result
  buffer as well as at the fourteen argument buffers, so the result array is W5 at the result buffer, and the
  arguments are as launched.
-/
import proofs.«102942_j13778255085862_2_alg».proof.Proof.Gen.KernelIdeal.Frame

set_option maxRecDepth 16384

noncomputable section

namespace Cert.Dense.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_value : θ_run defs (onTc (τ := τ) (main (F := F))) ⟨m, fun _ => 0, ρ⟩ (fun r => ∀ c : Dev nD,
      r.2.mem ((c.tc : Thread nD τ).loc main_v78) = W5 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v78 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.Dense.K

end
-- ==== Proof.Spec.lean ====
/-
  THE SCORE OF ONE NODE, AND THE LAW THAT JOINS THE TWO PROGRAMS.

  A node of either type carries an aggregated feature row agg (128 numbers), its own feature row x, and the
  reciprocal square root invd of its clamped degree. Its hidden row is
        h l = max (Σ_q (agg q · invd) · w0 q l + b0 l) 0,
  its output row
        t k = (Σ_l x l · wx l k + Σ_l h l · wh l k) + b2 k,
  and its two scores
        s j = Σ_k t k · wp k j.
  The kernel computes s for every node and gathers two scores per edge; the reference gathers t per edge, joins
  the two rows side by side into 256 numbers and multiplies by the 256-row matrix. A row joined from x and h
  times a matrix of 256 rows is the sum of x times the upper 128 rows and h times the lower 128 rows: that is
  sum_split, the only algebra between the two sides. It is a regrouping of a finite sum, so it holds on the
  extended reals with no finiteness assumption.
-/
import Idealize.ShloMosaic.PureOps.Ideal
import Idealize.ShloMosaic.Lib.ValueIdx

noncomputable section

open scoped BigOperators

namespace Cert.Dense

open Idealize.ShloMosaic Idealize.ShloMosaic.ValueIdx

/-- Row l of the upper half of a 256-row matrix. -/
abbrev lo (l : Fin 128) : Fin 256 := ⟨l.val, by omega⟩
/-- Row l of the lower half of a 256-row matrix. -/
abbrev hi (l : Fin 128) : Fin 256 := ⟨128 + l.val, by omega⟩

/-- A sum over 256 indices is the sum over the lower 128 plus the sum over the upper 128. -/
theorem sum_split (f : Fin 256 → EReal) :
    ∑ k : Fin 256, f k = ∑ l : Fin 128, f (lo l) + ∑ l : Fin 128, f (hi l) := by
  have h := Fin.sum_univ_add (a := 128) (b := 128) (fun k : Fin (128 + 128) => f ⟨k.val, k.isLt⟩)
  have e1 : ∑ k : Fin 256, f k = ∑ k : Fin (128 + 128), f ⟨k.val, k.isLt⟩ := rfl
  rw [e1, h]
  rfl

/-- The node an edge's start word names: the word read as a signed integer and clamped into [0, N − 1]. -/
abbrev rowOf (N : Nat) (hN : 0 < N) (wd : BitVec 32) : Fin N := ⟨min wd.toInt.toNat (N - 1), by omega⟩

/-- The upper 128 rows of a matrix of 256 rows. -/
def rowsLo {n : Nat} (w : (⟨2, ![256, n]⟩ : Shape).Idx → EReal) : (⟨2, ![128, n]⟩ : Shape).Idx → EReal :=
  fun i => w (ix2 (lo (⟨(i 0).val, (i 0).isLt⟩ : Fin 128)) (⟨(i 1).val, (i 1).isLt⟩ : Fin n))

/-- The lower 128 rows of a matrix of 256 rows. -/
def rowsHi {n : Nat} (w : (⟨2, ![256, n]⟩ : Shape).Idx → EReal) : (⟨2, ![128, n]⟩ : Shape).Idx → EReal :=
  fun i => w (ix2 (hi (⟨(i 0).val, (i 0).isLt⟩ : Fin 128)) (⟨(i 1).val, (i 1).isLt⟩ : Fin n))

theorem rowsLo_ix2 {n : Nat} (w : (⟨2, ![256, n]⟩ : Shape).Idx → EReal) (l : Fin 128) (k : Fin n) :
    rowsLo w (ix2 l k) = w (ix2 (lo l) k) := rfl

theorem rowsHi_ix2 {n : Nat} (w : (⟨2, ![256, n]⟩ : Shape).Idx → EReal) (l : Fin 128) (k : Fin n) :
    rowsHi w (ix2 l k) = w (ix2 (hi l) k) := rfl

/-- The float zero the rectifier compares with. -/
abbrev zeroF : EReal := FloatOps.ofBits (F := Ideal) .f32 0x00000000#32

/-- The hidden row of one node: the rectified affine image of its degree-scaled aggregate. -/
def hid (agg : Fin 128 → EReal) (invd : EReal) (w0 : Fin 128 → Fin 128 → EReal) (b0 : Fin 128 → EReal)
    (l : Fin 128) : EReal :=
  max ((∑ q : Fin 128, (agg q * invd) * w0 q l) + b0 l) zeroF

/-- The output row of one node: its own features through wx plus its hidden row through wh, plus the bias. -/
def tRow (x h : Fin 128 → EReal) (wx wh : Fin 128 → Fin 128 → EReal) (b2 : Fin 128 → EReal) (k : Fin 128) : EReal :=
  ((∑ l : Fin 128, x l * wx l k) + (∑ l : Fin 128, h l * wh l k)) + b2 k

/-- The two scores of one node: its output row through the 128-row half of the predictor's matrix. -/
def sRow (t : Fin 128 → EReal) (wp : Fin 128 → Fin 2 → EReal) (j : Fin 2) : EReal :=
  ∑ k : Fin 128, t k * wp k j

/-- One node's score from its rows and the weights. -/
def rowScore (agg x : Fin 128 → EReal) (invd : EReal) (w0 : Fin 128 → Fin 128 → EReal) (b0 : Fin 128 → EReal)
    (wx wh : Fin 128 → Fin 128 → EReal) (b2 : Fin 128 → EReal) (wp : Fin 128 → Fin 2 → EReal) (j : Fin 2) : EReal :=
  sRow (tRow x (hid agg invd w0 b0) wx wh b2) wp j

/-- A node's score depends on its rows and on the weights only through their values. -/
theorem rowScore_congr {agg agg' x x' : Fin 128 → EReal} {invd invd' : EReal} {w0 w0' : Fin 128 → Fin 128 → EReal}
    {b0 b0' : Fin 128 → EReal} {wx wx' wh wh' : Fin 128 → Fin 128 → EReal} {b2 b2' : Fin 128 → EReal}
    {wp wp' : Fin 128 → Fin 2 → EReal} (h1 : ∀ q, agg q = agg' q) (h2 : ∀ l, x l = x' l) (h3 : invd = invd')
    (h4 : ∀ q l, w0 q l = w0' q l) (h5 : ∀ l, b0 l = b0' l) (h6 : ∀ l k, wx l k = wx' l k)
    (h7 : ∀ l k, wh l k = wh' l k) (h8 : ∀ k, b2 k = b2' k) (h9 : ∀ k j, wp k j = wp' k j) (j : Fin 2) :
    rowScore agg x invd w0 b0 wx wh b2 wp j = rowScore agg' x' invd' w0' b0' wx' wh' b2' wp' j := by
  obtain rfl : agg = agg' := funext h1
  obtain rfl : x = x' := funext h2
  obtain rfl : invd = invd' := h3
  obtain rfl : w0 = w0' := funext fun q => funext (h4 q)
  obtain rfl : b0 = b0' := funext h5
  obtain rfl : wx = wx' := funext fun l => funext (h6 l)
  obtain rfl : wh = wh' := funext fun l => funext (h7 l)
  obtain rfl : b2 = b2' := funext h8
  obtain rfl : wp = wp' := funext fun k => funext (h9 k)
  rfl

/-- The scores of all N nodes of one type as an [N, 2] array of the node arrays and the weight arrays. -/
def nodeScores {N : Nat} (agg x : (⟨2, ![N, 128]⟩ : Shape).Idx → EReal) (invd : (⟨2, ![N, 1]⟩ : Shape).Idx → EReal)
    (w0 : (⟨2, ![128, 128]⟩ : Shape).Idx → EReal) (b0 : (⟨1, ![128]⟩ : Shape).Idx → EReal)
    (wx wh : (⟨2, ![128, 128]⟩ : Shape).Idx → EReal) (b2 : (⟨1, ![128]⟩ : Shape).Idx → EReal)
    (wp : (⟨2, ![128, 2]⟩ : Shape).Idx → EReal) : (⟨2, ![N, 2]⟩ : Shape).Idx → EReal :=
  fun i =>
    rowScore (fun q => agg (ix2 (⟨(i 0).val, (i 0).isLt⟩ : Fin N) q)) (fun l => x (ix2 (⟨(i 0).val, (i 0).isLt⟩ : Fin N) l))
      (invd (ix2 (⟨(i 0).val, (i 0).isLt⟩ : Fin N) (0 : Fin 1)))
      (fun q l => w0 (ix2 q l)) (fun l => b0 (ix1 l)) (fun l k => wx (ix2 l k)) (fun l k => wh (ix2 l k))
      (fun k => b2 (ix1 k)) (fun k j => wp (ix2 k j)) (⟨(i 1).val, (i 1).isLt⟩ : Fin 2)

/-- The array of scores read at node r, score j. -/
theorem nodeScores_ix2 {N : Nat} (agg x : (⟨2, ![N, 128]⟩ : Shape).Idx → EReal) (invd : (⟨2, ![N, 1]⟩ : Shape).Idx → EReal)
    (w0 : (⟨2, ![128, 128]⟩ : Shape).Idx → EReal) (b0 : (⟨1, ![128]⟩ : Shape).Idx → EReal)
    (wx wh : (⟨2, ![128, 128]⟩ : Shape).Idx → EReal) (b2 : (⟨1, ![128]⟩ : Shape).Idx → EReal)
    (wp : (⟨2, ![128, 2]⟩ : Shape).Idx → EReal) (r : Fin N) (j : Fin 2) :
    nodeScores agg x invd w0 b0 wx wh b2 wp (ix2 r j)
      = rowScore (fun q => agg (ix2 r q)) (fun l => x (ix2 r l)) (invd (ix2 r (0 : Fin 1)))
          (fun q l => w0 (ix2 q l)) (fun l => b0 (ix1 l)) (fun l k => wx (ix2 l k)) (fun l k => wh (ix2 l k))
          (fun k => b2 (ix1 k)) (fun k j => wp (ix2 k j)) j := rfl

end Cert.Dense

end
-- ==== Proof.Tail.lean ====
/-
  THE NORMALISATION BOTH PROGRAMS END WITH.

  Both programs turn the [1000000, 2] array of edge scores into probabilities by the same eleven host operations:
  the row maximum (a max-reduction started from −∞, then once more maximum with −∞), the exponential of the
  score less its row maximum, the row sum of those exponentials, and the quotient. Here they are one function of
  the score array; it is applied, never opened: equal scores give equal probabilities.
-/
import proofs.«102942_j13778255085862_2_alg».proof.Proof.Gen.ReferenceIdeal.Read

noncomputable section

namespace Cert.Dense

open Cert.ReferenceIdeal Cert.ReferenceIdeal.Gen Cert.ReferenceIdeal.Read Idealize.ShloMosaic Idealize.ShloMosaic.TcCoe

variable {F : FTy → Type} [FloatOps F]

/-- The maximum of each edge's two scores (never below −∞). -/
def rowMax (s : (⟨S1000000x2, .f32⟩ : BufTy).Contents (Elt F)) : (⟨S1000000, .f32⟩ : BufTy).Contents (Elt F) :=
  maximumf (broadcastInDim S1000000 ![] bcast_S_S1000000 (constant (F := F) S_ .f32 0xFF800000#32))
    (Host.reduce FloatOps.maximumf s (constant (F := F) S_ .f32 0xFF800000#32) reducesTo_S1000000x2_S1000000_d1 h_S_)

/-- The exponential of each score less its edge's maximum. -/
def expShift (s : (⟨S1000000x2, .f32⟩ : BufTy).Contents (Elt F)) : (⟨S1000000x2, .f32⟩ : BufTy).Contents (Elt F) :=
  Host.exp (subf s (broadcastInDim S1000000x2 ![0, 1] bcast_S1000000x1_S1000000x2_0_1
    (broadcastInDim S1000000x1 ![0] bcast_S1000000_S1000000x1_0 (rowMax s))))

/-- Each exponential over the sum of its edge's two exponentials. -/
def softmaxTail (s : (⟨S1000000x2, .f32⟩ : BufTy).Contents (Elt F)) : (⟨S1000000x2, .f32⟩ : BufTy).Contents (Elt F) :=
  Host.divf (expShift s) (broadcastInDim S1000000x2 ![0, 1] bcast_S1000000x1_S1000000x2_0_1
    (broadcastInDim S1000000x1 ![0] bcast_S1000000_S1000000x1_0
      (Host.reduceAdd (expShift s) (constant (F := F) S_ .f32 0x00000000#32) reducesTo_S1000000x2_S1000000_d1 h_S_)))

/-- The reference's result is the normalisation of its score stage. -/
theorem ref_tail (x0 : (⟨S100000x128, .f32⟩ : BufTy).Contents (Elt F)) (x1 : (⟨S50000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S256x2, .f32⟩ : BufTy).Contents (Elt F)) (x11 : (⟨S2, .f32⟩ : BufTy).Contents (Elt F)) (x12 x13 : (⟨S1000000, .i32⟩ : BufTy).Contents (Elt F)) :
    val_main_v95 (F := F) x0 x1 x2 x3 x4 x5 x6 x7 x8 x9 x10 x11 x12 x13 = softmaxTail (val_main_v84 (F := F) x0 x1 x2 x3 x4 x5 x6 x7 x8 x9 x10 x11 x12 x13) := rfl

end Cert.Dense

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.RefScore.lean ====
/-
  THE REFERENCE'S PRE-SOFTMAX SCORE OF ONE EDGE, READ AT AN INDEX.

  The reference computes, for each node of either type, a hidden row h = max (Σ_q (agg q · invd) · w0 q l + b0 l) 0 and an
  output row t = [x, h] · W + b2, where [x, h] is the node's own 128 features and its hidden row joined into 256 numbers
  and W has 256 rows. For each edge it gathers the output row of the first-type node and of the second-type node the
  edge's two start words name (read signed, clamped into the node range), joins the two rows into 256 numbers and
  multiplies by the 256-row predictor matrix, then adds the bias.

  A joined row times a 256-row matrix is the left half times the upper 128 rows plus the right half times the lower 128
  rows (a regrouping of a finite sum, valid on the extended reals). Applied once per node type and once per edge, this
  reads the edge's score as the sum of two per-node scores plus the bias. Everything else is reading each array
  operation at one index: a broadcast at its source index, a product, sum or maximum elementwise, a contraction as a
  finite sum, a join by the half its column falls in, a row gather at the clamped start word.
-/
import proofs.«102942_j13778255085862_2_alg».proof.Proof.Gen.ReferenceIdeal.Read
import proofs.«102942_j13778255085862_2_alg».proof.Proof.Spec
import proofs.«102942_j13778255085862_2_alg».proof.Proof.LibScatterGather
import Idealize.ShloMosaic.Lib.ValueIdx
import Idealize.ShloMosaic.Lib.Pipeline.Value
import Idealize.ShloMosaic.PureOps.Ideal.Laws

noncomputable section

open scoped BigOperators

namespace Cert.Dense

open Idealize.ShloMosaic Idealize.ShloMosaic.ValueIdx Cert.ReferenceIdeal Cert.ReferenceIdeal.Read

/-! ## Two arrays of 128 columns joined side by side -/

/-- Two arrays of N rows and 128 columns joined along the columns, read at a column of the left half: the first array
    at that column. -/
theorem concat_lo {N : Nat} (h : Shape.Concatenates [(⟨2, ![N, 128]⟩ : Shape), ⟨2, ![N, 128]⟩] ⟨2, ![N, 256]⟩ 1)
    (a b : (⟨2, ![N, 128]⟩ : Shape).Idx → EReal) (r : Fin N) (l : Fin 128) :
    concatenate (⟨2, ![N, 256]⟩ : Shape) 1 [⟨⟨2, ![N, 128]⟩, a⟩, ⟨⟨2, ![N, 128]⟩, b⟩] h (ix2 r (lo l)) = a (ix2 r l) :=
  concatenate_pair_apply_left (t := ⟨2, ![N, 256]⟩) (s₁ := ⟨2, ![N, 128]⟩) (s₂ := ⟨2, ![N, 128]⟩) 1 a b h (ix2 r (lo l)) rfl (ix2 r l)
    (fun c => by match c with | ⟨0, _⟩ => rfl | ⟨1, _⟩ => rfl)

/-- The same join read at a column of the right half: the second array at that column less 128. -/
theorem concat_hi {N : Nat} (h : Shape.Concatenates [(⟨2, ![N, 128]⟩ : Shape), ⟨2, ![N, 128]⟩] ⟨2, ![N, 256]⟩ 1)
    (a b : (⟨2, ![N, 128]⟩ : Shape).Idx → EReal) (r : Fin N) (l : Fin 128) :
    concatenate (⟨2, ![N, 256]⟩ : Shape) 1 [⟨⟨2, ![N, 128]⟩, a⟩, ⟨⟨2, ![N, 128]⟩, b⟩] h (ix2 r (hi l)) = b (ix2 r l) :=
  concatenate_pair_apply_right (t := ⟨2, ![N, 256]⟩) (s₁ := ⟨2, ![N, 128]⟩) (s₂ := ⟨2, ![N, 128]⟩) 1 a b h (ix2 r (hi l)) rfl rfl (ix2 r l)
    (fun c hc => by
      match c, hc with
      | ⟨0, _⟩, _ => rfl
      | ⟨1, _⟩, hc => exact (hc (Fin.ext rfl)).elim)
    (by show l.val + 128 = 128 + l.val; omega)

/-! ## The first node type: rows of 100000 nodes -/

/-- The rectified layer of the first node type at node r, unit l: the hidden row of the node's degree-scaled aggregate. -/
theorem hU_apply (x1 : (⟨S50000x128, .f32⟩ : BufTy).Contents (Elt Ideal)) (x4 : (⟨S128x128, .f32⟩ : BufTy).Contents (Elt Ideal))
    (x5 : (⟨S128, .f32⟩ : BufTy).Contents (Elt Ideal)) (x12 x13 : (⟨S1000000, .i32⟩ : BufTy).Contents (Elt Ideal))
    (r : Fin 100000) (l : Fin 128) :
    val_main_v54 (F := Ideal) x1 x4 x5 x12 x13 (ix2 r l)
      = hid (fun q => val_main_v46 (F := Ideal) x1 x12 x13 (ix2 r q)) (val_main_v47 (F := Ideal) x12 (ix2 r (0 : Fin 1)))
          (fun q l => x4 (ix2 q l)) (fun l => x5 (ix1 l)) l := by
  have e1 : ∀ q : Fin 128, lidx_main_v50 (ix2 r l) q = ix2 r q := fun q =>
    funext fun a => Fin.ext (by match a with | ⟨0, _⟩ => rfl | ⟨1, _⟩ => rfl)
  have e2 : ∀ q : Fin 128, ridx_main_v50 (ix2 r l) q = ix2 q l := fun q =>
    funext fun a => Fin.ext (by match a with | ⟨0, _⟩ => rfl | ⟨1, _⟩ => rfl)
  have e3 : idx_main_v51 (idx_main_v52 (ix2 r l)) = ix1 l :=
    funext fun a => Fin.ext (by match a with | ⟨0, _⟩ => rfl)
  have e4 : ∀ q : Fin 128, idx_main_v48 (ix2 r q) = ix2 r (0 : Fin 1) := fun q =>
    funext fun a => Fin.ext (by match a with | ⟨0, _⟩ => rfl | ⟨1, _⟩ => rfl)
  rw [val_main_v54_apply, val_main_v53_apply, val_main_v50_apply, val_main_call0_v0_apply, val_main_call0_cst_apply,
    val_main_v52_apply, val_main_v51_apply]
  simp only [e1, e2, e3]
  have hs : (fun k : Fin 128 => val_main_v49 (F := Ideal) x1 x12 x13 (ix2 r k) * x4 (ix2 k l))
      = fun q : Fin 128 => (val_main_v46 (F := Ideal) x1 x12 x13 (ix2 r q) * val_main_v47 (F := Ideal) x12 (ix2 r (0 : Fin 1))) * x4 (ix2 q l) :=
    funext fun k => by rw [val_main_v49_apply, val_main_v48_apply, e4 k, Ideal.mulf_def]
  rw [hs]
  rfl

/-- The joined row [own features, hidden row] of the first node type, left half. -/
theorem v56_lo (x0 : (⟨S100000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x12 x13 : (⟨S1000000, .i32⟩ : BufTy).Contents (Elt Ideal)) (r : Fin 100000) (l : Fin 128) :
    val_main_v56 (F := Ideal) x0 x1 x4 x5 x12 x13 (ix2 r (lo l)) = x0 (ix2 r l) :=
  concat_lo _ _ _ r l

/-- The same joined row, right half. -/
theorem v56_hi (x0 : (⟨S100000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x12 x13 : (⟨S1000000, .i32⟩ : BufTy).Contents (Elt Ideal)) (r : Fin 100000) (l : Fin 128) :
    val_main_v56 (F := Ideal) x0 x1 x4 x5 x12 x13 (ix2 r (hi l)) = val_main_v54 (F := Ideal) x1 x4 x5 x12 x13 (ix2 r l) :=
  concat_hi _ _ _ r l

/-- The output layer of the first node type at node r, unit k: the joined row times the 256-row matrix, split into its
    upper and lower 128 rows, plus the bias. -/
theorem tU_apply (x0 : (⟨S100000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x12 x13 : (⟨S1000000, .i32⟩ : BufTy).Contents (Elt Ideal)) (r : Fin 100000) (k : Fin 128) :
    val_main_v60 (F := Ideal) x0 x1 x4 x5 x6 x7 x12 x13 (ix2 r k)
      = tRow (fun l => x0 (ix2 r l))
          (hid (fun q => val_main_v46 (F := Ideal) x1 x12 x13 (ix2 r q)) (val_main_v47 (F := Ideal) x12 (ix2 r (0 : Fin 1)))
            (fun q l => x4 (ix2 q l)) (fun l => x5 (ix1 l)))
          (fun l k => x6 (ix2 (lo l) k)) (fun l k => x6 (ix2 (hi l) k)) (fun k => x7 (ix1 k)) k := by
  have e1 : ∀ q : Fin 256, lidx_main_v57 (ix2 r k) q = ix2 r q := fun q =>
    funext fun a => Fin.ext (by match a with | ⟨0, _⟩ => rfl | ⟨1, _⟩ => rfl)
  have e2 : ∀ q : Fin 256, ridx_main_v57 (ix2 r k) q = ix2 q k := fun q =>
    funext fun a => Fin.ext (by match a with | ⟨0, _⟩ => rfl | ⟨1, _⟩ => rfl)
  have e3 : idx_main_v58 (idx_main_v59 (ix2 r k)) = ix1 k :=
    funext fun a => Fin.ext (by match a with | ⟨0, _⟩ => rfl)
  rw [val_main_v60_apply, val_main_v57_apply, val_main_v59_apply, val_main_v58_apply]
  simp only [e1, e2, e3]
  show (∑ q : Fin 256, val_main_v56 (F := Ideal) x0 x1 x4 x5 x12 x13 (ix2 r q) * x6 (ix2 q k)) + x7 (ix1 k) = _
  rw [sum_split]
  have h1 : (fun l : Fin 128 => val_main_v56 (F := Ideal) x0 x1 x4 x5 x12 x13 (ix2 r (lo l)) * x6 (ix2 (lo l) k))
      = fun l : Fin 128 => x0 (ix2 r l) * x6 (ix2 (lo l) k) :=
    funext fun l => by rw [v56_lo]
  have h2 : (fun l : Fin 128 => val_main_v56 (F := Ideal) x0 x1 x4 x5 x12 x13 (ix2 r (hi l)) * x6 (ix2 (hi l) k))
      = fun l : Fin 128 => hid (fun q => val_main_v46 (F := Ideal) x1 x12 x13 (ix2 r q))
          (val_main_v47 (F := Ideal) x12 (ix2 r (0 : Fin 1))) (fun q l => x4 (ix2 q l)) (fun l => x5 (ix1 l)) l * x6 (ix2 (hi l) k) :=
    funext fun l => by rw [v56_hi, hU_apply]
  rw [h1, h2]
  rfl

/-! ## The second node type: rows of 50000 nodes -/

/-- The rectified layer of the second node type at node r, unit l: the hidden row of the node's degree-scaled aggregate. -/
theorem hI_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x12 x13 : (⟨S1000000, .i32⟩ : BufTy).Contents (Elt Ideal))
    (r : Fin 50000) (l : Fin 128) :
    val_main_v55 (F := Ideal) x0 x2 x3 x12 x13 (ix2 r l)
      = hid (fun q => val_main_v26 (F := Ideal) x0 x12 x13 (ix2 r q)) (val_main_v27 (F := Ideal) x13 (ix2 r (0 : Fin 1)))
          (fun q l => x2 (ix2 q l)) (fun l => x3 (ix1 l)) l := by
  have e1 : ∀ q : Fin 128, lidx_main_v30 (ix2 r l) q = ix2 r q := fun q =>
    funext fun a => Fin.ext (by match a with | ⟨0, _⟩ => rfl | ⟨1, _⟩ => rfl)
  have e2 : ∀ q : Fin 128, ridx_main_v30 (ix2 r l) q = ix2 q l := fun q =>
    funext fun a => Fin.ext (by match a with | ⟨0, _⟩ => rfl | ⟨1, _⟩ => rfl)
  have e3 : idx_main_v31 (idx_main_v32 (ix2 r l)) = ix1 l :=
    funext fun a => Fin.ext (by match a with | ⟨0, _⟩ => rfl)
  have e4 : ∀ q : Fin 128, idx_main_v28 (ix2 r q) = ix2 r (0 : Fin 1) := fun q =>
    funext fun a => Fin.ext (by match a with | ⟨0, _⟩ => rfl | ⟨1, _⟩ => rfl)
  rw [val_main_v55_apply, val_main_v33_apply, val_main_v30_apply, val_main_call1_v0_apply, val_main_call1_cst_apply,
    val_main_v32_apply, val_main_v31_apply]
  simp only [e1, e2, e3]
  have hs : (fun k : Fin 128 => val_main_v29 (F := Ideal) x0 x12 x13 (ix2 r k) * x2 (ix2 k l))
      = fun q : Fin 128 => (val_main_v26 (F := Ideal) x0 x12 x13 (ix2 r q) * val_main_v27 (F := Ideal) x13 (ix2 r (0 : Fin 1))) * x2 (ix2 q l) :=
    funext fun k => by rw [val_main_v29_apply, val_main_v28_apply, e4 k, Ideal.mulf_def]
  rw [hs]
  rfl

/-- The joined row [own features, hidden row] of the second node type, left half. -/
theorem v61_lo (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x12 x13 : (⟨S1000000, .i32⟩ : BufTy).Contents (Elt Ideal)) (r : Fin 50000) (l : Fin 128) :
    val_main_v61 (F := Ideal) x0 x1 x2 x3 x12 x13 (ix2 r (lo l)) = x1 (ix2 r l) :=
  concat_lo _ _ _ r l

/-- The same joined row, right half. -/
theorem v61_hi (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x12 x13 : (⟨S1000000, .i32⟩ : BufTy).Contents (Elt Ideal)) (r : Fin 50000) (l : Fin 128) :
    val_main_v61 (F := Ideal) x0 x1 x2 x3 x12 x13 (ix2 r (hi l)) = val_main_v55 (F := Ideal) x0 x2 x3 x12 x13 (ix2 r l) :=
  concat_hi _ _ _ r l

/-- The output layer of the second node type at node r, unit k: the joined row times the 256-row matrix, split into its
    upper and lower 128 rows, plus the bias. -/
theorem tI_apply (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x8 : (⟨S256x128, .f32⟩ : BufTy).Contents (Elt Ideal)) (x9 : (⟨S128, .f32⟩ : BufTy).Contents (Elt Ideal))
    (x12 x13 : (⟨S1000000, .i32⟩ : BufTy).Contents (Elt Ideal)) (r : Fin 50000) (k : Fin 128) :
    val_main_v65 (F := Ideal) x0 x1 x2 x3 x8 x9 x12 x13 (ix2 r k)
      = tRow (fun l => x1 (ix2 r l))
          (hid (fun q => val_main_v26 (F := Ideal) x0 x12 x13 (ix2 r q)) (val_main_v27 (F := Ideal) x13 (ix2 r (0 : Fin 1)))
            (fun q l => x2 (ix2 q l)) (fun l => x3 (ix1 l)))
          (fun l k => x8 (ix2 (lo l) k)) (fun l k => x8 (ix2 (hi l) k)) (fun k => x9 (ix1 k)) k := by
  have e1 : ∀ q : Fin 256, lidx_main_v62 (ix2 r k) q = ix2 r q := fun q =>
    funext fun a => Fin.ext (by match a with | ⟨0, _⟩ => rfl | ⟨1, _⟩ => rfl)
  have e2 : ∀ q : Fin 256, ridx_main_v62 (ix2 r k) q = ix2 q k := fun q =>
    funext fun a => Fin.ext (by match a with | ⟨0, _⟩ => rfl | ⟨1, _⟩ => rfl)
  have e3 : idx_main_v63 (idx_main_v64 (ix2 r k)) = ix1 k :=
    funext fun a => Fin.ext (by match a with | ⟨0, _⟩ => rfl)
  rw [val_main_v65_apply, val_main_v62_apply, val_main_v64_apply, val_main_v63_apply]
  simp only [e1, e2, e3]
  show (∑ q : Fin 256, val_main_v61 (F := Ideal) x0 x1 x2 x3 x12 x13 (ix2 r q) * x8 (ix2 q k)) + x9 (ix1 k) = _
  rw [sum_split]
  have h1 : (fun l : Fin 128 => val_main_v61 (F := Ideal) x0 x1 x2 x3 x12 x13 (ix2 r (lo l)) * x8 (ix2 (lo l) k))
      = fun l : Fin 128 => x1 (ix2 r l) * x8 (ix2 (lo l) k) :=
    funext fun l => by rw [v61_lo]
  have h2 : (fun l : Fin 128 => val_main_v61 (F := Ideal) x0 x1 x2 x3 x12 x13 (ix2 r (hi l)) * x8 (ix2 (hi l) k))
      = fun l : Fin 128 => hid (fun q => val_main_v26 (F := Ideal) x0 x12 x13 (ix2 r q))
          (val_main_v27 (F := Ideal) x13 (ix2 r (0 : Fin 1))) (fun q l => x2 (ix2 q l)) (fun l => x3 (ix1 l)) l * x8 (ix2 (hi l) k) :=
    funext fun l => by rw [v61_hi, hI_apply]
  rw [h1, h2]
  rfl

/-! ## The edges: each edge's two output rows, joined and scored -/

/-- The first row gather at edge e, unit f: the first node type's output row of the node the edge's start word names. -/
theorem v72_apply (x0 : (⟨S100000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x12 x13 : (⟨S1000000, .i32⟩ : BufTy).Contents (Elt Ideal)) (e : Fin 1000000) (f : Fin 128) :
    val_main_v72 (F := Ideal) x0 x1 x4 x5 x6 x7 x12 x13 (ix2 e f)
      = val_main_v60 (F := Ideal) x0 x1 x4 x5 x6 x7 x12 x13
          (ix2 (rowOf 100000 (by decide) (val_main_v71 (F := Ideal) x12 (ix2 e (0 : Fin 1)))) f) :=
  Cert.Lib.ScatterGather.gather_rows_apply (N := 100000) (M := 1000000) (C := 128) (by decide)
    Cert.ReferenceIdeal.Gen.gather_S100000x128_S1000000x1_S1000000x128_1_0_n_n_0_1_1128_wf
    (val_main_v60 (F := Ideal) x0 x1 x4 x5 x6 x7 x12 x13) (val_main_v71 (F := Ideal) x12) e f

/-- The second row gather at edge e, unit f: the second node type's output row of the node the edge's start word names. -/
theorem v79_apply (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x8 : (⟨S256x128, .f32⟩ : BufTy).Contents (Elt Ideal)) (x9 : (⟨S128, .f32⟩ : BufTy).Contents (Elt Ideal))
    (x12 x13 : (⟨S1000000, .i32⟩ : BufTy).Contents (Elt Ideal)) (e : Fin 1000000) (f : Fin 128) :
    val_main_v79 (F := Ideal) x0 x1 x2 x3 x8 x9 x12 x13 (ix2 e f)
      = val_main_v65 (F := Ideal) x0 x1 x2 x3 x8 x9 x12 x13
          (ix2 (rowOf 50000 (by decide) (val_main_v78 (F := Ideal) x13 (ix2 e (0 : Fin 1)))) f) :=
  Cert.Lib.ScatterGather.gather_rows_apply (N := 50000) (M := 1000000) (C := 128) (by decide)
    Cert.ReferenceIdeal.Gen.gather_S50000x128_S1000000x1_S1000000x128_1_0_n_n_0_1_1128_wf
    (val_main_v65 (F := Ideal) x0 x1 x2 x3 x8 x9 x12 x13) (val_main_v78 (F := Ideal) x13) e f

/-- An edge's joined row, left half: the first gather. -/
theorem v80_lo (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal))
    (x12 x13 : (⟨S1000000, .i32⟩ : BufTy).Contents (Elt Ideal)) (e : Fin 1000000) (l : Fin 128) :
    val_main_v80 (F := Ideal) x0 x1 x2 x3 x4 x5 x6 x7 x8 x9 x12 x13 (ix2 e (lo l))
      = val_main_v72 (F := Ideal) x0 x1 x4 x5 x6 x7 x12 x13 (ix2 e l) :=
  concat_lo _ _ _ e l

/-- An edge's joined row, right half: the second gather. -/
theorem v80_hi (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal))
    (x12 x13 : (⟨S1000000, .i32⟩ : BufTy).Contents (Elt Ideal)) (e : Fin 1000000) (l : Fin 128) :
    val_main_v80 (F := Ideal) x0 x1 x2 x3 x4 x5 x6 x7 x8 x9 x12 x13 (ix2 e (hi l))
      = val_main_v79 (F := Ideal) x0 x1 x2 x3 x8 x9 x12 x13 (ix2 e l) :=
  concat_hi _ _ _ e l

/-- THE REFERENCE'S SCORE OF ONE EDGE. The pre-softmax score of edge e, class j, is the score of the first-type node its
    first start word names plus the score of the second-type node its second start word names, plus the bias: the edge's
    joined 256-number row times the 256-row matrix is the sum of the two 128-number halves, each half being one node's
    output row, and each node's output row is in turn such a split sum over its own features and its hidden row. The
    start words are read signed and clamped into the node range. -/
theorem ref_score (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal))
    (x10 : (⟨S256x2, .f32⟩ : BufTy).Contents (Elt Ideal)) (x11 : (⟨S2, .f32⟩ : BufTy).Contents (Elt Ideal))
    (x12 x13 : (⟨S1000000, .i32⟩ : BufTy).Contents (Elt Ideal)) (e : Fin 1000000) (j : Fin 2) :
    val_main_v84 (F := Ideal) x0 x1 x2 x3 x4 x5 x6 x7 x8 x9 x10 x11 x12 x13 (ix2 e j)
      = (rowScore
            (fun q => val_main_v46 (F := Ideal) x1 x12 x13 (ix2 (rowOf 100000 (by decide) (val_main_v71 (F := Ideal) x12 (ix2 e (0 : Fin 1)))) q))
            (fun l => x0 (ix2 (rowOf 100000 (by decide) (val_main_v71 (F := Ideal) x12 (ix2 e (0 : Fin 1)))) l))
            (val_main_v47 (F := Ideal) x12 (ix2 (rowOf 100000 (by decide) (val_main_v71 (F := Ideal) x12 (ix2 e (0 : Fin 1)))) (0 : Fin 1)))
            (fun q l => x4 (ix2 q l)) (fun l => x5 (ix1 l)) (fun l k => x6 (ix2 (lo l) k)) (fun l k => x6 (ix2 (hi l) k))
            (fun k => x7 (ix1 k)) (fun k j => x10 (ix2 (lo k) j)) j
          + rowScore
            (fun q => val_main_v26 (F := Ideal) x0 x12 x13 (ix2 (rowOf 50000 (by decide) (val_main_v78 (F := Ideal) x13 (ix2 e (0 : Fin 1)))) q))
            (fun l => x1 (ix2 (rowOf 50000 (by decide) (val_main_v78 (F := Ideal) x13 (ix2 e (0 : Fin 1)))) l))
            (val_main_v27 (F := Ideal) x13 (ix2 (rowOf 50000 (by decide) (val_main_v78 (F := Ideal) x13 (ix2 e (0 : Fin 1)))) (0 : Fin 1)))
            (fun q l => x2 (ix2 q l)) (fun l => x3 (ix1 l)) (fun l k => x8 (ix2 (lo l) k)) (fun l k => x8 (ix2 (hi l) k))
            (fun k => x9 (ix1 k)) (fun k j => x10 (ix2 (hi k) j)) j)
        + x11 (ix1 j) := by
  have e1 : ∀ q : Fin 256, lidx_main_v81 (ix2 e j) q = ix2 e q := fun q =>
    funext fun a => Fin.ext (by match a with | ⟨0, _⟩ => rfl | ⟨1, _⟩ => rfl)
  have e2 : ∀ q : Fin 256, ridx_main_v81 (ix2 e j) q = ix2 q j := fun q =>
    funext fun a => Fin.ext (by match a with | ⟨0, _⟩ => rfl | ⟨1, _⟩ => rfl)
  have e3 : idx_main_v82 (idx_main_v83 (ix2 e j)) = ix1 j :=
    funext fun a => Fin.ext (by match a with | ⟨0, _⟩ => rfl)
  rw [val_main_v84_apply, val_main_v81_apply, val_main_v83_apply, val_main_v82_apply]
  simp only [e1, e2, e3]
  show (∑ q : Fin 256, val_main_v80 (F := Ideal) x0 x1 x2 x3 x4 x5 x6 x7 x8 x9 x12 x13 (ix2 e q) * x10 (ix2 q j))
      + x11 (ix1 j) = _
  rw [sum_split]
  have h1 : (fun l : Fin 128 => val_main_v80 (F := Ideal) x0 x1 x2 x3 x4 x5 x6 x7 x8 x9 x12 x13 (ix2 e (lo l)) * x10 (ix2 (lo l) j))
      = fun l : Fin 128 =>
        tRow (fun l => x0 (ix2 (rowOf 100000 (by decide) (val_main_v71 (F := Ideal) x12 (ix2 e (0 : Fin 1)))) l))
          (hid (fun q => val_main_v46 (F := Ideal) x1 x12 x13 (ix2 (rowOf 100000 (by decide) (val_main_v71 (F := Ideal) x12 (ix2 e (0 : Fin 1)))) q))
            (val_main_v47 (F := Ideal) x12 (ix2 (rowOf 100000 (by decide) (val_main_v71 (F := Ideal) x12 (ix2 e (0 : Fin 1)))) (0 : Fin 1)))
            (fun q l => x4 (ix2 q l)) (fun l => x5 (ix1 l)))
          (fun l k => x6 (ix2 (lo l) k)) (fun l k => x6 (ix2 (hi l) k)) (fun k => x7 (ix1 k)) l * x10 (ix2 (lo l) j) :=
    funext fun l => by rw [v80_lo, v72_apply, tU_apply]
  have h2 : (fun l : Fin 128 => val_main_v80 (F := Ideal) x0 x1 x2 x3 x4 x5 x6 x7 x8 x9 x12 x13 (ix2 e (hi l)) * x10 (ix2 (hi l) j))
      = fun l : Fin 128 =>
        tRow (fun l => x1 (ix2 (rowOf 50000 (by decide) (val_main_v78 (F := Ideal) x13 (ix2 e (0 : Fin 1)))) l))
          (hid (fun q => val_main_v26 (F := Ideal) x0 x12 x13 (ix2 (rowOf 50000 (by decide) (val_main_v78 (F := Ideal) x13 (ix2 e (0 : Fin 1)))) q))
            (val_main_v27 (F := Ideal) x13 (ix2 (rowOf 50000 (by decide) (val_main_v78 (F := Ideal) x13 (ix2 e (0 : Fin 1)))) (0 : Fin 1)))
            (fun q l => x2 (ix2 q l)) (fun l => x3 (ix1 l)))
          (fun l k => x8 (ix2 (lo l) k)) (fun l k => x8 (ix2 (hi l) k)) (fun k => x9 (ix1 k)) l * x10 (ix2 (hi l) j) :=
    funext fun l => by rw [v80_hi, v79_apply, tI_apply]
  rw [h1, h2]
  rfl

end Cert.Dense

end
-- ==== Proof.Bridge.lean ====
/-
  THE KERNEL PROGRAM'S EDGE SCORES ARE THE REFERENCE'S.

  The kernel program has, per node type, the [N, 2] array of node scores; for edge e it adds the user scores of
  the node its source word names and the item scores of the node its destination word names, then the bias. The
  reference gathers the two 128-wide output rows of those same nodes, joins them into 256 numbers, multiplies by
  the 256-row predictor matrix and adds the bias. Both gathers clamp the same start word into the same range, so
  they name the same node; and the 256-term product splits into the user half against the upper 128 rows plus
  the item half against the lower 128 rows (the reference's score stage read at an index), which are the two
  node scores.
-/
import proofs.«102942_j13778255085862_2_alg».proof.Proof.Gen.ReferenceIdeal.Read
import proofs.«102942_j13778255085862_2_alg».proof.Proof.Spec
import proofs.«102942_j13778255085862_2_alg».proof.Proof.LibScatterGather
import proofs.«102942_j13778255085862_2_alg».proof.Proof.RefScore
import Idealize.ShloMosaic.Lib.ValueIdx

noncomputable section

open scoped BigOperators

namespace Cert.Dense

open Idealize.ShloMosaic Idealize.ShloMosaic.ValueIdx Cert.ReferenceIdeal Cert.ReferenceIdeal.Read Cert.Lib.ScatterGather

/-- The kernel program's score of every edge, from the user nodes' scores sU, the item nodes' scores sI, the bias
    and the two columns of start words. -/
def scoreK (sU : (⟨2, ![100000, 2]⟩ : Shape).Idx → EReal) (sI : (⟨2, ![50000, 2]⟩ : Shape).Idx → EReal)
    (x11 : (⟨S2, .f32⟩ : BufTy).Contents (Elt Ideal)) (x12 x13 : (⟨S1000000, .i32⟩ : BufTy).Contents (Elt Ideal)) : (⟨S1000000x2, .f32⟩ : BufTy).Contents (Elt Ideal) :=
  addf (F := Ideal) (s := S1000000x2) (φ := .f32)
    (addf (F := Ideal) (s := S1000000x2) (φ := .f32)
      (Host.gather (rowGatherDims 100000 1000000 2 (by decide)) sU (val_main_v71 (F := Ideal) x12))
      (Host.gather (rowGatherDims 50000 1000000 2 (by decide)) sI (val_main_v78 (F := Ideal) x13)))
    (val_main_v83 (F := Ideal) x11)

/-- The bias row broadcast over the edges, read at edge e, score j. -/
theorem bias_apply (x11 : (⟨S2, .f32⟩ : BufTy).Contents (Elt Ideal)) (e : Fin 1000000) (j : Fin 2) :
    val_main_v83 (F := Ideal) x11 (ix2 e j) = x11 (ix1 j) := by
  rw [val_main_v83_apply, val_main_v82_apply]
  exact congrArg x11 (funext fun a => Fin.ext (by match a with | ⟨0, _⟩ => rfl))

/-- With the node scores computed from the same aggregates, features and weights, the kernel program's edge scores are
    the reference's score stage. -/
theorem scoreK_eq (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S256x2, .f32⟩ : BufTy).Contents (Elt Ideal)) (x11 : (⟨S2, .f32⟩ : BufTy).Contents (Elt Ideal)) (x12 x13 : (⟨S1000000, .i32⟩ : BufTy).Contents (Elt Ideal)) :
    scoreK
      (nodeScores (N := 100000) (val_main_v46 (F := Ideal) x1 x12 x13) x0 (val_main_v47 (F := Ideal) x12) x4 x5
        (rowsLo x6) (rowsHi x6) x7 (rowsLo x10))
      (nodeScores (N := 50000) (val_main_v26 (F := Ideal) x0 x12 x13) x1 (val_main_v27 (F := Ideal) x13) x2 x3
        (rowsLo x8) (rowsHi x8) x9 (rowsHi x10))
      x11 x12 x13
    = val_main_v84 (F := Ideal) x0 x1 x2 x3 x4 x5 x6 x7 x8 x9 x10 x11 x12 x13 := by
  funext i
  obtain ⟨e, j, rfl⟩ : ∃ (e : Fin 1000000) (j : Fin 2), i = ix2 e j := ⟨i 0, i 1, eq_ix2 i⟩
  rw [ref_score]
  show (Host.gather (rowGatherDims 100000 1000000 2 (by decide)) _ (val_main_v71 (F := Ideal) x12) (ix2 e j)
      + Host.gather (rowGatherDims 50000 1000000 2 (by decide)) _ (val_main_v78 (F := Ideal) x13) (ix2 e j))
      + val_main_v83 (F := Ideal) x11 (ix2 e j) = _
  rw [gather_rows_apply (by decide) _ _ (val_main_v71 (F := Ideal) x12) e j,
    gather_rows_apply (by decide) _ _ (val_main_v78 (F := Ideal) x13) e j, bias_apply, nodeScores_ix2, nodeScores_ix2]
  rfl

end Cert.Dense

end
-- ==== Proof.Payload.lean ====
/-
  ONE NODE'S SCORE, READ OUT OF THE KERNEL BODY'S ARITHMETIC.

  The body's last value is a chain of array operations on nine loaded blocks: the aggregate block is scaled row by
  row by a one-column block, multiplied by a square weight matrix, shifted by a bias row and rectified against zero;
  the node block and the rectified block each meet a square weight matrix and the two products are added and shifted
  by a second bias row; the result meets a two-column matrix. Over the extended reals a change of float format is the
  identity, a matrix product into a zero accumulator is the plain sum over the contracted axis, and the pointwise
  operations are the operations of the extended reals. So the entry at row p and column j of the last value is
  exactly the score of Spec.lean computed from row p of the three node blocks and from the weights, with no rounding
  and no order of summation left in it. The file reads each operation at an index (the two matrix products, the two
  kinds of broadcast) and then walks the chain from the outside in.
-/
import proofs.«102942_j13778255085862_2_alg».proof.Proof.Gen.KernelIdeal.Skeleton
import proofs.«102942_j13778255085862_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Dense

open Idealize.ShloMosaic Idealize.ShloMosaic.ValueIdx Cert.KernelIdeal

/-! ## Congruences of the three arithmetic operations -/

theorem mul_congr' {a a' b b' : EReal} (h1 : a = a') (h2 : b = b') : a * b = a' * b' := by rw [h1, h2]
theorem add_congr' {a a' b b' : EReal} (h1 : a = a') (h2 : b = b') : a + b = a' + b' := by rw [h1, h2]
theorem max_congr' {a a' b b' : EReal} (h1 : a = a') (h2 : b = b') : max a b = max a' b' := by rw [h1, h2]

/-! ## A column broadcast along the rows -/

/-- An `[a, 1]` array broadcast to `[a, b]` reads, at `(p, c)`, the one entry of the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index -/

/-- In the product of a [5000, 128] by a [128, 128] matrix the left operand's row is the output's row. -/
theorem lhsHH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction's one coordinate. -/
theorem lhsHH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction's one coordinate. -/
theorem rhsHH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhsHH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] by a [128, 128] matrix into a zero accumulator, at row `p` and column `k`, is the sum
    over the 128 inner positions of the left operand's row `p` times the right operand's column `k`. -/
theorem matmulHH_apply (A : FVec Ideal S5000x128 .bf16) (B : FVec Ideal S128x128 .bf16) (p : Fin 5000) (k : Fin 128) :
    matmul dot_S5000x128_S128x128_S5000x128_1_0_0_1_n_n none A B (constant (F := Ideal) S5000x128 .f32 0x00000000#32) (ix2 p k)
      = ∑ l : Fin 128, A (ix2 p l) * B (ix2 l k) := by
  refine (Ideal.matmul_constant_zero_apply dot_S5000x128_S128x128_S5000x128_1_0_0_1_n_n none A B (ix2 p k)).trans ?_
  rw [← Equiv.sum_comp (ValueIdx.contrEquiv1 dot_S5000x128_S128x128_S5000x128_1_0_0_1_n_n 128 rfl rfl).symm]
  refine Finset.sum_congr rfl fun l _ => ?_
  have hl := ValueIdx.contrEquiv1_symm_val dot_S5000x128_S128x128_S5000x128_1_0_0_1_n_n 128 rfl rfl l
  have el : dot_S5000x128_S128x128_S5000x128_1_0_0_1_n_n.lhsIdx (ix2 p k) ((ValueIdx.contrEquiv1 dot_S5000x128_S128x128_S5000x128_1_0_0_1_n_n 128 rfl rfl).symm l) = ix2 p l := funext fun a => Fin.ext (by
    match a with
    | ⟨0, _⟩ => exact lhsHH_0 _ _
    | ⟨1, _⟩ => exact (lhsHH_1 _ _).trans hl)
  have er : dot_S5000x128_S128x128_S5000x128_1_0_0_1_n_n.rhsIdx (ix2 p k) ((ValueIdx.contrEquiv1 dot_S5000x128_S128x128_S5000x128_1_0_0_1_n_n 128 rfl rfl).symm l) = ix2 l k := funext fun a => Fin.ext (by
    match a with
    | ⟨0, _⟩ => exact (rhsHH_0 _ _).trans hl
    | ⟨1, _⟩ => exact rhsHH_1 _ _)
  rw [el, er]

/-- In the product of a [5000, 128] by a [128, 2] matrix the left operand's row is the output's row. -/
theorem lhsHO_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
/-- The left operand's column is the contraction's one coordinate. -/
theorem lhsHO_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
/-- The right operand's row is the contraction's one coordinate. -/
theorem rhsHO_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
/-- The right operand's column is the output's column. -/
theorem rhsHO_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The product of a [5000, 128] by a [128, 2] matrix into a zero accumulator, at row `p` and column `k`, is the sum
    over the 128 inner positions of the left operand's row `p` times the right operand's column `k`. -/
theorem matmulHO_apply (A : FVec Ideal S5000x128 .bf16) (B : FVec Ideal S128x2 .bf16) (p : Fin 5000) (k : Fin 2) :
    matmul dot_S5000x128_S128x2_S5000x2_1_0_0_1_n_n none A B (constant (F := Ideal) S5000x2 .f32 0x00000000#32) (ix2 p k)
      = ∑ l : Fin 128, A (ix2 p l) * B (ix2 l k) := by
  refine (Ideal.matmul_constant_zero_apply dot_S5000x128_S128x2_S5000x2_1_0_0_1_n_n none A B (ix2 p k)).trans ?_
  rw [← Equiv.sum_comp (ValueIdx.contrEquiv1 dot_S5000x128_S128x2_S5000x2_1_0_0_1_n_n 128 rfl rfl).symm]
  refine Finset.sum_congr rfl fun l _ => ?_
  have hl := ValueIdx.contrEquiv1_symm_val dot_S5000x128_S128x2_S5000x2_1_0_0_1_n_n 128 rfl rfl l
  have el : dot_S5000x128_S128x2_S5000x2_1_0_0_1_n_n.lhsIdx (ix2 p k) ((ValueIdx.contrEquiv1 dot_S5000x128_S128x2_S5000x2_1_0_0_1_n_n 128 rfl rfl).symm l) = ix2 p l := funext fun a => Fin.ext (by
    match a with
    | ⟨0, _⟩ => exact lhsHO_0 _ _
    | ⟨1, _⟩ => exact (lhsHO_1 _ _).trans hl)
  have er : dot_S5000x128_S128x2_S5000x2_1_0_0_1_n_n.rhsIdx (ix2 p k) ((ValueIdx.contrEquiv1 dot_S5000x128_S128x2_S5000x2_1_0_0_1_n_n 128 rfl rfl).symm l) = ix2 l k := funext fun a => Fin.ext (by
    match a with
    | ⟨0, _⟩ => exact (rhsHO_0 _ _).trans hl
    | ⟨1, _⟩ => exact rhsHO_1 _ _)
  rw [el, er]

/-! ## The chain, from the outside in -/

/-- The entry at row `p`, column `j` of the first kernel body's last value is the score `j` of the node whose aggregate
    row, feature row and inverse-degree entry are row `p` of the three node blocks, under the loaded weights:
    the hidden row is the rectified image of the scaled aggregate row, the output row is the feature row and the
    hidden row through their two matrices plus the second bias, and the score is the output row through the
    two-column matrix. -/
theorem pay0_apply (v0 : Vec Ideal S5000x128 .f32) (v2 : Vec Ideal S5000x1 .f32) (v7 : Vec Ideal S5000x128 .f32)
    (v9 v11 v14 : Vec Ideal S128x128 .f32) (v17 : Vec Ideal S128x2 .f32) (v21 v31 : Vec Ideal S128 .f32)
    (p : Fin 5000) (j : Fin 2) :
    Cert.KernelIdeal.Gen.k0_pay1 (F := Ideal) v0 v2 v7 v9 v11 v14 v17 v21 v31 (ix2 p j)
      = rowScore (fun q => v0 (ix2 p q)) (fun l => v7 (ix2 p l)) (v2 (ix2 p (0 : Fin 1)))
          (fun q l => v9 (ix2 q l)) (fun l => v21 (ix1 l)) (fun l k => v11 (ix2 l k)) (fun l k => v14 (ix2 l k))
          (fun k => v31 (ix1 k)) (fun k j => v17 (ix2 k j)) j := by
  unfold Cert.KernelIdeal.Gen.k0_pay1
  unfold rowScore sRow
  -- the score: the output row through the two-column matrix
  refine (matmulHO_apply _ _ p j).trans ?_
  refine Finset.sum_congr rfl fun k _ => ?_
  refine mul_congr' ?_ ((truncf_apply (φ := .f32) (ψ := .bf16) _ _ _).trans (congrFun (shapeCast_self v17 _) (ix2 k j)))
  -- the output row: two products and a bias
  unfold tRow
  refine (truncf_apply (φ := .f32) (ψ := .bf16) _ _ _).trans ((addf_apply _ _ _).trans (add_congr' ((addf_apply _ _ _).trans (add_congr' ?_ ?_)) ?_))
  · -- the feature row through its matrix
    refine (matmulHH_apply _ _ p k).trans ?_
    refine Finset.sum_congr rfl fun l _ => ?_
    exact mul_congr' (truncf_apply (φ := .f32) (ψ := .bf16) _ _ _) ((truncf_apply (φ := .f32) (ψ := .bf16) _ _ _).trans (congrFun (shapeCast_self v11 _) (ix2 l k)))
  · -- the hidden row through its matrix
    refine (matmulHH_apply _ _ p k).trans ?_
    refine Finset.sum_congr rfl fun l _ => ?_
    refine mul_congr' ?_ ((truncf_apply (φ := .f32) (ψ := .bf16) _ _ _).trans (congrFun (shapeCast_self v14 _) (ix2 l k)))
    -- the hidden row: the rectified affine image of the scaled aggregate row
    unfold hid
    refine (truncf_apply (φ := .f32) (ψ := .bf16) _ _ _).trans ((maximumf_apply _ _ _).trans (max_congr' ((addf_apply _ _ _).trans (add_congr' ?_ ?_)) rfl))
    · refine (matmulHH_apply _ _ p l).trans ?_
      refine Finset.sum_congr rfl fun q _ => ?_
      refine mul_congr' ((truncf_apply (φ := .f32) (ψ := .bf16) _ _ _).trans ((mulf_apply _ _ _).trans (mul_congr' (congrFun (shapeCast_self v0 _) (ix2 p q)) ?_))) (truncf_apply (φ := .f32) (ψ := .bf16) _ _ _)
      exact (broadcastTo_a1_ab_apply _ _ p q).trans (congrFun (shapeCast_self v2 _) (ix2 p (0 : Fin 1)))
    · exact (broadcastTo_1b_ab_apply _ _ p l).trans (shapeCast_a_1a_apply v21 _ (0 : Fin 1) l)
  · -- the second bias
    exact (broadcastTo_1b_ab_apply _ _ p k).trans (shapeCast_a_1a_apply v31 _ (0 : Fin 1) k)

/-- The second kernel body computes the same chain of operations, so its last value reads the same way. -/
theorem pay1_apply (v0 : Vec Ideal S5000x128 .f32) (v2 : Vec Ideal S5000x1 .f32) (v7 : Vec Ideal S5000x128 .f32)
    (v9 v11 v14 : Vec Ideal S128x128 .f32) (v17 : Vec Ideal S128x2 .f32) (v21 v31 : Vec Ideal S128 .f32)
    (p : Fin 5000) (j : Fin 2) :
    Cert.KernelIdeal.Gen.k1_pay1 (F := Ideal) v0 v2 v7 v9 v11 v14 v17 v21 v31 (ix2 p j)
      = rowScore (fun q => v0 (ix2 p q)) (fun l => v7 (ix2 p l)) (v2 (ix2 p (0 : Fin 1)))
          (fun q l => v9 (ix2 q l)) (fun l => v21 (ix1 l)) (fun l k => v11 (ix2 l k)) (fun l k => v14 (ix2 l k))
          (fun k => v31 (ix1 k)) (fun k j => v17 (ix2 k j)) j :=
  pay0_apply v0 v2 v7 v9 v11 v14 v17 v21 v31 p j

end Cert.Dense

end
-- ==== Proof.Region0.lean ====
/-
  THE FIRST PALLAS_CALL'S OUTPUT ARRAY: THE SCORES OF THE ITEM NODES.

  The grid has 10 points; point t works on rows 5000·t … 5000·t + 4999 of the three row-blocked operands (the
  aggregate, the features, the inverse-degree column) and on the whole of the six weight operands, and writes back
  rows 5000·t … of the [50000, 2] output. The body's one store is the payload of the loaded blocks, and the payload
  at (p, j) is the score of the node whose rows are row p of the blocks: so what point t writes back is block t of
  the array of all nodes' scores. The ten blocks tile the 50000 rows, so the output array ends as that array.
  Everything is stated at arbitrary contents V of the buffers when the region is entered.
-/
import proofs.«102942_j13778255085862_2_alg».proof.Proof.Gen.KernelIdeal.Frame
import proofs.«102942_j13778255085862_2_alg».proof.Proof.Payload
import Idealize.ShloMosaic.Lib.Pipeline.Value
import Idealize.ShloMosaic.Lib.ValueIdx

set_option maxRecDepth 16384

noncomputable section

namespace Cert.Dense.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the three row-blocked inputs and the output are at block row t, the six weight
    operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 10 := by
  have hN : cfg0.N = 10 := N_0
  have := t.isLt; omega

/-! ## The input blocks at a point, read off the arrays -/

theorem read_0 (c : Dev nD) (t : Fin cfg0.N) (p : Fin 5000) (q : Fin 128) (h : t.val * 5000 + p.val < 50000) :
    iblk0 V c 0 t (ix2 p q) = V c main_v26 (ix2 (⟨t.val * 5000 + p.val, h⟩ : Fin 50000) q) := by
  show V c main_v26 (((cfg0.win 0).blk t).view.emb (ix2 p q)) = _
  obtain ⟨e0, e1, -⟩ := idx_facts t
  have he : ((cfg0.win 0).blk t).view.emb (ix2 p q) = ix2 (⟨t.val * 5000 + p.val, h⟩ : Fin 50000) q := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * q.val = q.val; omega
  rw [he]

theorem read_1 (c : Dev nD) (t : Fin cfg0.N) (p : Fin 5000) (q : Fin 128) (h : t.val * 5000 + p.val < 50000) :
    iblk0 V c 1 t (ix2 p q) = V c main_arg1 (ix2 (⟨t.val * 5000 + p.val, h⟩ : Fin 50000) q) := by
  show V c main_arg1 (((cfg0.win 1).blk t).view.emb (ix2 p q)) = _
  obtain ⟨-, -, e0, e1, -⟩ := idx_facts t
  have he : ((cfg0.win 1).blk t).view.emb (ix2 p q) = ix2 (⟨t.val * 5000 + p.val, h⟩ : Fin 50000) q := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * q.val = q.val; omega
  rw [he]

theorem read_2 (c : Dev nD) (t : Fin cfg0.N) (p : Fin 5000) (h : t.val * 5000 + p.val < 50000) :
    iblk0 V c 2 t (ix2 p (0 : Fin 1)) = V c main_v46 (ix2 (⟨t.val * 5000 + p.val, h⟩ : Fin 50000) (0 : Fin 1)) := by
  show V c main_v46 (((cfg0.win 2).blk t).view.emb (ix2 p (0 : Fin 1))) = _
  obtain ⟨-, -, -, -, e0, e1, -⟩ := idx_facts t
  have he : ((cfg0.win 2).blk t).view.emb (ix2 p (0 : Fin 1)) = ix2 (⟨t.val * 5000 + p.val, h⟩ : Fin 50000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  rw [he]

theorem read_3 (c : Dev nD) (t : Fin cfg0.N) (q l : Fin 128) :
    iblk0 V c 3 t (ix2 q l) = V c main_arg2 (ix2 q l) := by
  show V c main_arg2 (((cfg0.win 3).blk t).view.emb (ix2 q l)) = _
  obtain ⟨-, -, -, -, -, -, e0, e1, -⟩ := idx_facts t
  have he : ((cfg0.win 3).blk t).view.emb (ix2 q l) = ix2 q l := by
    funext a; apply Fin.ext
    match a with
    | ⟨0, _⟩ => show win0_3.index t (0 : Fin 2) * 128 + 1 * q.val = q.val; omega
    | ⟨1, _⟩ => show win0_3.index t (1 : Fin 2) * 128 + 1 * l.val = l.val; omega
  rw [he]

theorem read_4 (c : Dev nD) (t : Fin cfg0.N) (l : Fin 128) :
    iblk0 V c 4 t (ix1 l) = V c main_arg3 (ix1 l) := by
  show V c main_arg3 (((cfg0.win 4).blk t).view.emb (ix1 l)) = _
  obtain ⟨-, -, -, -, -, -, -, -, e0, -⟩ := idx_facts t
  have he : ((cfg0.win 4).blk t).view.emb (ix1 l) = ix1 l := by
    funext a; apply Fin.ext
    match a with
    | ⟨0, _⟩ => show win0_4.index t (0 : Fin 1) * 128 + 1 * l.val = l.val; omega
  rw [he]

theorem read_5 (c : Dev nD) (t : Fin cfg0.N) (q l : Fin 128) :
    iblk0 V c 5 t (ix2 q l) = V c main_v42 (ix2 q l) := by
  show V c main_v42 (((cfg0.win 5).blk t).view.emb (ix2 q l)) = _
  obtain ⟨-, -, -, -, -, -, -, -, -, e0, e1, -⟩ := idx_facts t
  have he : ((cfg0.win 5).blk t).view.emb (ix2 q l) = ix2 q l := by
    funext a; apply Fin.ext
    match a with
    | ⟨0, _⟩ => show win0_5.index t (0 : Fin 2) * 128 + 1 * q.val = q.val; omega
    | ⟨1, _⟩ => show win0_5.index t (1 : Fin 2) * 128 + 1 * l.val = l.val; omega
  rw [he]

theorem read_6 (c : Dev nD) (t : Fin cfg0.N) (q l : Fin 128) :
    iblk0 V c 6 t (ix2 q l) = V c main_v43 (ix2 q l) := by
  show V c main_v43 (((cfg0.win 6).blk t).view.emb (ix2 q l)) = _
  obtain ⟨-, -, -, -, -, -, -, -, -, -, -, e0, e1, -⟩ := idx_facts t
  have he : ((cfg0.win 6).blk t).view.emb (ix2 q l) = ix2 q l := by
    funext a; apply Fin.ext
    match a with
    | ⟨0, _⟩ => show win0_6.index t (0 : Fin 2) * 128 + 1 * q.val = q.val; omega
    | ⟨1, _⟩ => show win0_6.index t (1 : Fin 2) * 128 + 1 * l.val = l.val; omega
  rw [he]

theorem read_7 (c : Dev nD) (t : Fin cfg0.N) (l : Fin 128) :
    iblk0 V c 7 t (ix1 l) = V c main_arg9 (ix1 l) := by
  show V c main_arg9 (((cfg0.win 7).blk t).view.emb (ix1 l)) = _
  obtain ⟨-, -, -, -, -, -, -, -, -, -, -, -, -, e0, -⟩ := idx_facts t
  have he : ((cfg0.win 7).blk t).view.emb (ix1 l) = ix1 l := by
    funext a; apply Fin.ext
    match a with
    | ⟨0, _⟩ => show win0_7.index t (0 : Fin 1) * 128 + 1 * l.val = l.val; omega
  rw [he]

theorem read_8 (c : Dev nD) (t : Fin cfg0.N) (k : Fin 128) (j : Fin 2) :
    iblk0 V c 8 t (ix2 k j) = V c main_v45 (ix2 k j) := by
  show V c main_v45 (((cfg0.win 8).blk t).view.emb (ix2 k j)) = _
  obtain ⟨-, -, -, -, -, -, -, -, -, -, -, -, -, -, e0, e1, -⟩ := idx_facts t
  have he : ((cfg0.win 8).blk t).view.emb (ix2 k j) = ix2 k j := by
    funext a; apply Fin.ext
    match a with
    | ⟨0, _⟩ => show win0_8.index t (0 : Fin 2) * 128 + 1 * k.val = k.val; omega
    | ⟨1, _⟩ => show win0_8.index t (1 : Fin 2) * 2 + 1 * j.val = j.val; omega
  rw [he]

/-! ## What a point writes back -/

/-- Point t writes back block t of the array of all item nodes' scores. -/
theorem flushed_eq (c : Dev nD) (t : Fin cfg0.N) :
    (dat0 V c).flushed 9 t = ((cfg0.win 9).blk t).view.read (Elt Ideal)
      (nodeScores (N := 50000) (V c main_v26) (V c main_arg1) (V c main_v46) (V c main_arg2) (V c main_arg3)
        (V c main_v42) (V c main_v43) (V c main_arg9) (V c main_v45)) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S5000x1) hz2,
    View.ld_unit_zero (S := S128x128) hz2, View.ld_unit_zero (S := S128x2) hz2, View.ld_unit_zero (S := S128) hz1]
  have ht := t_lt t
  obtain ⟨-, -, -, -, -, -, -, -, -, -, -, -, -, -, -, -, e0, e1⟩ := idx_facts t
  funext j
  have hj0 : (j 0).val < 5000 := (j 0).isLt
  have hj1 : (j 1).val < 2 := (j 1).isLt
  have hj : j = ix2 (⟨(j 0).val, hj0⟩ : Fin 5000) (⟨(j 1).val, hj1⟩ : Fin 2) :=
    funext fun a => by match a with | ⟨0, _⟩ => rfl | ⟨1, _⟩ => rfl
  have hrow : t.val * 5000 + (j 0).val < 50000 := by omega
  have he : ((cfg0.win 9).blk t).view.emb j = ix2 (⟨t.val * 5000 + (j 0).val, hrow⟩ : Fin 50000) (⟨(j 1).val, hj1⟩ : Fin 2) := by
    funext a; apply Fin.ext
    match a with
    | ⟨0, _⟩ => show win0_9.index t (0 : Fin 2) * 5000 + 1 * (j 0).val = t.val * 5000 + (j 0).val; omega
    | ⟨1, _⟩ => show win0_9.index t (1 : Fin 2) * 2 + 1 * (j 1).val = (j 1).val; omega
  show k0_pay1 (F := Ideal) (iblk0 V c 0 t) (iblk0 V c 2 t) (iblk0 V c 1 t) (iblk0 V c 3 t) (iblk0 V c 5 t) (iblk0 V c 6 t)
      (iblk0 V c 8 t) (iblk0 V c 4 t) (iblk0 V c 7 t) j
    = nodeScores (N := 50000) (V c main_v26) (V c main_arg1) (V c main_v46) (V c main_arg2) (V c main_arg3)
        (V c main_v42) (V c main_v43) (V c main_arg9) (V c main_v45) (((cfg0.win 9).blk t).view.emb j)
  rw [he, nodeScores_ix2]
  refine (congrArg (k0_pay1 (F := Ideal) (iblk0 V c 0 t) (iblk0 V c 2 t) (iblk0 V c 1 t) (iblk0 V c 3 t) (iblk0 V c 5 t)
      (iblk0 V c 6 t) (iblk0 V c 8 t) (iblk0 V c 4 t) (iblk0 V c 7 t)) hj).trans ?_
  refine (pay0_apply (iblk0 V c 0 t) (iblk0 V c 2 t) (iblk0 V c 1 t) (iblk0 V c 3 t) (iblk0 V c 5 t) (iblk0 V c 6 t)
      (iblk0 V c 8 t) (iblk0 V c 4 t) (iblk0 V c 7 t) (⟨(j 0).val, hj0⟩ : Fin 5000) (⟨(j 1).val, hj1⟩ : Fin 2)).trans ?_
  exact rowScore_congr (fun q => read_0 V c t _ q hrow) (fun l => read_1 V c t _ l hrow) (read_2 V c t _ hrow)
    (fun q l => read_3 V c t q l) (fun l => read_4 V c t l) (fun l k => read_5 V c t l k) (fun l k => read_6 V c t l k)
    (fun k => read_7 V c t k) (fun k j' => read_8 V c t k j') _

/-! ## The array after the region -/

/-- An index of the output array is in point t's block iff its row lies in rows 5000·t … 5000·t + 4999. -/
theorem mem_blk (t : Fin cfg0.N) (i : S50000x2.Idx) :
    i ∈ ((cfg0.win 9).blk t).view.set ↔ ∀ a : Fin 2, win0_9.index t a * S5000x2.size a ≤ (i a).val ∧ (i a).val < win0_9.index t a * S5000x2.size a + S5000x2.size a := by
  show i ∈ ((View.whole main_v47).slice (win0_9.rect t)).set ↔ _
  rw [View.set_slice_whole, Rect.mem_set_unit]
  exact Iff.rfl

/-- THE OUTPUT ARRAY after the region is the array of all item nodes' scores, of the arrays the region was entered with. -/
theorem final (c : Dev nD) : (dat0 V c).arrAt 9 cfg0.N
    = nodeScores (N := 50000) (V c main_v26) (V c main_arg1) (V c main_v46) (V c main_arg2) (V c main_arg3)
        (V c main_v42) (V c main_v43) (V c main_arg9) (V c main_v45) :=
  (dat0 V c).arrAt_eq_of_cover 9 _ (fun t _ => flushed_eq V c t) fun i => by
    have hN : cfg0.N = 10 := N_0
    have hi0 : (i 0).val < 50000 := (i 0).isLt
    have hi1 : (i 1).val < 2 := (i 1).isLt
    refine ⟨⟨(i 0).val / 5000, by omega⟩, flush0_9 _, ?_⟩
    rw [mem_blk]
    obtain ⟨-, -, -, -, -, -, -, -, -, -, -, -, -, -, -, -, e0, e1⟩ := idx_facts ⟨(i 0).val / 5000, by omega⟩
    intro a
    match a with
    | ⟨0, _⟩ =>
      show win0_9.index ⟨(i 0).val / 5000, _⟩ (0 : Fin 2) * 5000 ≤ (i 0).val ∧ (i 0).val < win0_9.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_9.index ⟨(i 0).val / 5000, _⟩ (1 : Fin 2) * 2 ≤ (i 1).val ∧ (i 1).val < win0_9.index ⟨(i 0).val / 5000, _⟩ (1 : Fin 2) * 2 + 2
      rw [e1]; omega

end Cert.Dense.R0

end
-- ==== Proof.Region1.lean ====
/-
  THE SECOND PALLAS_CALL'S OUTPUT ARRAY: THE SCORES OF THE USER NODES.

  The same body on the user side: the grid has 20 points; point t works on rows 5000·t … 5000·t + 4999 of the
  user aggregate, the user features and the user inverse-degree column, on the whole of its six weight operands,
  and writes back rows 5000·t … of the [100000, 2] output. What point t writes back is block t of the array of all
  user nodes' scores, and the twenty blocks tile the 100000 rows. Stated at arbitrary contents V of the buffers
  when the region is entered.
-/
import proofs.«102942_j13778255085862_2_alg».proof.Proof.Gen.KernelIdeal.Frame
import proofs.«102942_j13778255085862_2_alg».proof.Proof.Payload
import Idealize.ShloMosaic.Lib.Pipeline.Value
import Idealize.ShloMosaic.Lib.ValueIdx

set_option maxRecDepth 16384

noncomputable section

namespace Cert.Dense.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the three row-blocked inputs and the output are at block row t, the six weight
    operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem t_lt (t : Fin cfg1.N) : t.val < 20 := by
  have hN : cfg1.N = 20 := N_1
  have := t.isLt; omega

/-! ## The input blocks at a point, read off the arrays -/

theorem read_0 (c : Dev nD) (t : Fin cfg1.N) (p : Fin 5000) (q : Fin 128) (h : t.val * 5000 + p.val < 100000) :
    iblk1 V c 0 t (ix2 p q) = V c main_v39 (ix2 (⟨t.val * 5000 + p.val, h⟩ : Fin 100000) q) := by
  show V c main_v39 (((cfg1.win 0).blk t).view.emb (ix2 p q)) = _
  obtain ⟨e0, e1, -⟩ := idx_facts t
  have he : ((cfg1.win 0).blk t).view.emb (ix2 p q) = ix2 (⟨t.val * 5000 + p.val, h⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  rw [he]

theorem read_1 (c : Dev nD) (t : Fin cfg1.N) (p : Fin 5000) (q : Fin 128) (h : t.val * 5000 + p.val < 100000) :
    iblk1 V c 1 t (ix2 p q) = V c main_arg0 (ix2 (⟨t.val * 5000 + p.val, h⟩ : Fin 100000) q) := by
  show V c main_arg0 (((cfg1.win 1).blk t).view.emb (ix2 p q)) = _
  obtain ⟨-, -, e0, e1, -⟩ := idx_facts t
  have he : ((cfg1.win 1).blk t).view.emb (ix2 p q) = ix2 (⟨t.val * 5000 + p.val, h⟩ : Fin 100000) q := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  rw [he]

theorem read_2 (c : Dev nD) (t : Fin cfg1.N) (p : Fin 5000) (h : t.val * 5000 + p.val < 100000) :
    iblk1 V c 2 t (ix2 p (0 : Fin 1)) = V c main_v48 (ix2 (⟨t.val * 5000 + p.val, h⟩ : Fin 100000) (0 : Fin 1)) := by
  show V c main_v48 (((cfg1.win 2).blk t).view.emb (ix2 p (0 : Fin 1))) = _
  obtain ⟨-, -, -, -, e0, e1, -⟩ := idx_facts t
  have he : ((cfg1.win 2).blk t).view.emb (ix2 p (0 : Fin 1)) = ix2 (⟨t.val * 5000 + p.val, h⟩ : Fin 100000) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  rw [he]

theorem read_3 (c : Dev nD) (t : Fin cfg1.N) (q l : Fin 128) :
    iblk1 V c 3 t (ix2 q l) = V c main_arg4 (ix2 q l) := by
  show V c main_arg4 (((cfg1.win 3).blk t).view.emb (ix2 q l)) = _
  obtain ⟨-, -, -, -, -, -, e0, e1, -⟩ := idx_facts t
  have he : ((cfg1.win 3).blk t).view.emb (ix2 q l) = ix2 q l := by
    funext a; apply Fin.ext
    match a with
    | ⟨0, _⟩ => show win1_3.index t (0 : Fin 2) * 128 + 1 * q.val = q.val; omega
    | ⟨1, _⟩ => show win1_3.index t (1 : Fin 2) * 128 + 1 * l.val = l.val; omega
  rw [he]

theorem read_4 (c : Dev nD) (t : Fin cfg1.N) (l : Fin 128) :
    iblk1 V c 4 t (ix1 l) = V c main_arg5 (ix1 l) := by
  show V c main_arg5 (((cfg1.win 4).blk t).view.emb (ix1 l)) = _
  obtain ⟨-, -, -, -, -, -, -, -, e0, -⟩ := idx_facts t
  have he : ((cfg1.win 4).blk t).view.emb (ix1 l) = ix1 l := by
    funext a; apply Fin.ext
    match a with
    | ⟨0, _⟩ => show win1_4.index t (0 : Fin 1) * 128 + 1 * l.val = l.val; omega
  rw [he]

theorem read_5 (c : Dev nD) (t : Fin cfg1.N) (q l : Fin 128) :
    iblk1 V c 5 t (ix2 q l) = V c main_v40 (ix2 q l) := by
  show V c main_v40 (((cfg1.win 5).blk t).view.emb (ix2 q l)) = _
  obtain ⟨-, -, -, -, -, -, -, -, -, e0, e1, -⟩ := idx_facts t
  have he : ((cfg1.win 5).blk t).view.emb (ix2 q l) = ix2 q l := by
    funext a; apply Fin.ext
    match a with
    | ⟨0, _⟩ => show win1_5.index t (0 : Fin 2) * 128 + 1 * q.val = q.val; omega
    | ⟨1, _⟩ => show win1_5.index t (1 : Fin 2) * 128 + 1 * l.val = l.val; omega
  rw [he]

theorem read_6 (c : Dev nD) (t : Fin cfg1.N) (q l : Fin 128) :
    iblk1 V c 6 t (ix2 q l) = V c main_v41 (ix2 q l) := by
  show V c main_v41 (((cfg1.win 6).blk t).view.emb (ix2 q l)) = _
  obtain ⟨-, -, -, -, -, -, -, -, -, -, -, e0, e1, -⟩ := idx_facts t
  have he : ((cfg1.win 6).blk t).view.emb (ix2 q l) = ix2 q l := by
    funext a; apply Fin.ext
    match a with
    | ⟨0, _⟩ => show win1_6.index t (0 : Fin 2) * 128 + 1 * q.val = q.val; omega
    | ⟨1, _⟩ => show win1_6.index t (1 : Fin 2) * 128 + 1 * l.val = l.val; omega
  rw [he]

theorem read_7 (c : Dev nD) (t : Fin cfg1.N) (l : Fin 128) :
    iblk1 V c 7 t (ix1 l) = V c main_arg7 (ix1 l) := by
  show V c main_arg7 (((cfg1.win 7).blk t).view.emb (ix1 l)) = _
  obtain ⟨-, -, -, -, -, -, -, -, -, -, -, -, -, e0, -⟩ := idx_facts t
  have he : ((cfg1.win 7).blk t).view.emb (ix1 l) = ix1 l := by
    funext a; apply Fin.ext
    match a with
    | ⟨0, _⟩ => show win1_7.index t (0 : Fin 1) * 128 + 1 * l.val = l.val; omega
  rw [he]

theorem read_8 (c : Dev nD) (t : Fin cfg1.N) (k : Fin 128) (j : Fin 2) :
    iblk1 V c 8 t (ix2 k j) = V c main_v44 (ix2 k j) := by
  show V c main_v44 (((cfg1.win 8).blk t).view.emb (ix2 k j)) = _
  obtain ⟨-, -, -, -, -, -, -, -, -, -, -, -, -, -, e0, e1, -⟩ := idx_facts t
  have he : ((cfg1.win 8).blk t).view.emb (ix2 k j) = ix2 k j := by
    funext a; apply Fin.ext
    match a with
    | ⟨0, _⟩ => show win1_8.index t (0 : Fin 2) * 128 + 1 * k.val = k.val; omega
    | ⟨1, _⟩ => show win1_8.index t (1 : Fin 2) * 2 + 1 * j.val = j.val; omega
  rw [he]

/-! ## What a point writes back -/

/-- Point t writes back block t of the array of all user nodes' scores. -/
theorem flushed_eq (c : Dev nD) (t : Fin cfg1.N) :
    (dat1 V c).flushed 9 t = ((cfg1.win 9).blk t).view.read (Elt Ideal)
      (nodeScores (N := 100000) (V c main_v39) (V c main_arg0) (V c main_v48) (V c main_arg4) (V c main_arg5)
        (V c main_v40) (V c main_v41) (V c main_arg7) (V c main_v44)) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S5000x1) hz2,
    View.ld_unit_zero (S := S128x128) hz2, View.ld_unit_zero (S := S128x2) hz2, View.ld_unit_zero (S := S128) hz1]
  have ht := t_lt t
  obtain ⟨-, -, -, -, -, -, -, -, -, -, -, -, -, -, -, -, e0, e1⟩ := idx_facts t
  funext j
  have hj0 : (j 0).val < 5000 := (j 0).isLt
  have hj1 : (j 1).val < 2 := (j 1).isLt
  have hj : j = ix2 (⟨(j 0).val, hj0⟩ : Fin 5000) (⟨(j 1).val, hj1⟩ : Fin 2) :=
    funext fun a => by match a with | ⟨0, _⟩ => rfl | ⟨1, _⟩ => rfl
  have hrow : t.val * 5000 + (j 0).val < 100000 := by omega
  have he : ((cfg1.win 9).blk t).view.emb j = ix2 (⟨t.val * 5000 + (j 0).val, hrow⟩ : Fin 100000) (⟨(j 1).val, hj1⟩ : Fin 2) := by
    funext a; apply Fin.ext
    match a with
    | ⟨0, _⟩ => show win1_9.index t (0 : Fin 2) * 5000 + 1 * (j 0).val = t.val * 5000 + (j 0).val; omega
    | ⟨1, _⟩ => show win1_9.index t (1 : Fin 2) * 2 + 1 * (j 1).val = (j 1).val; omega
  show k1_pay1 (F := Ideal) (iblk1 V c 0 t) (iblk1 V c 2 t) (iblk1 V c 1 t) (iblk1 V c 3 t) (iblk1 V c 5 t) (iblk1 V c 6 t)
      (iblk1 V c 8 t) (iblk1 V c 4 t) (iblk1 V c 7 t) j
    = nodeScores (N := 100000) (V c main_v39) (V c main_arg0) (V c main_v48) (V c main_arg4) (V c main_arg5)
        (V c main_v40) (V c main_v41) (V c main_arg7) (V c main_v44) (((cfg1.win 9).blk t).view.emb j)
  rw [he, nodeScores_ix2]
  refine (congrArg (k1_pay1 (F := Ideal) (iblk1 V c 0 t) (iblk1 V c 2 t) (iblk1 V c 1 t) (iblk1 V c 3 t) (iblk1 V c 5 t)
      (iblk1 V c 6 t) (iblk1 V c 8 t) (iblk1 V c 4 t) (iblk1 V c 7 t)) hj).trans ?_
  refine (pay1_apply (iblk1 V c 0 t) (iblk1 V c 2 t) (iblk1 V c 1 t) (iblk1 V c 3 t) (iblk1 V c 5 t) (iblk1 V c 6 t)
      (iblk1 V c 8 t) (iblk1 V c 4 t) (iblk1 V c 7 t) (⟨(j 0).val, hj0⟩ : Fin 5000) (⟨(j 1).val, hj1⟩ : Fin 2)).trans ?_
  exact rowScore_congr (fun q => read_0 V c t _ q hrow) (fun l => read_1 V c t _ l hrow) (read_2 V c t _ hrow)
    (fun q l => read_3 V c t q l) (fun l => read_4 V c t l) (fun l k => read_5 V c t l k) (fun l k => read_6 V c t l k)
    (fun k => read_7 V c t k) (fun k j' => read_8 V c t k j') _

/-! ## The array after the region -/

/-- An index of the output array is in point t's block iff its row lies in rows 5000·t … 5000·t + 4999. -/
theorem mem_blk (t : Fin cfg1.N) (i : S100000x2.Idx) :
    i ∈ ((cfg1.win 9).blk t).view.set ↔ ∀ a : Fin 2, win1_9.index t a * S5000x2.size a ≤ (i a).val ∧ (i a).val < win1_9.index t a * S5000x2.size a + S5000x2.size a := by
  show i ∈ ((View.whole main_v49).slice (win1_9.rect t)).set ↔ _
  rw [View.set_slice_whole, Rect.mem_set_unit]
  exact Iff.rfl

/-- THE OUTPUT ARRAY after the region is the array of all user nodes' scores, of the arrays the region was entered with. -/
theorem final (c : Dev nD) : (dat1 V c).arrAt 9 cfg1.N
    = nodeScores (N := 100000) (V c main_v39) (V c main_arg0) (V c main_v48) (V c main_arg4) (V c main_arg5)
        (V c main_v40) (V c main_v41) (V c main_arg7) (V c main_v44) :=
  (dat1 V c).arrAt_eq_of_cover 9 _ (fun t _ => flushed_eq V c t) fun i => by
    have hN : cfg1.N = 20 := N_1
    have hi0 : (i 0).val < 100000 := (i 0).isLt
    have hi1 : (i 1).val < 2 := (i 1).isLt
    refine ⟨⟨(i 0).val / 5000, by omega⟩, flush1_9 _, ?_⟩
    rw [mem_blk]
    obtain ⟨-, -, -, -, -, -, -, -, -, -, -, -, -, -, -, -, e0, e1⟩ := idx_facts ⟨(i 0).val / 5000, by omega⟩
    intro a
    match a with
    | ⟨0, _⟩ =>
      show win1_9.index ⟨(i 0).val / 5000, _⟩ (0 : Fin 2) * 5000 ≤ (i 0).val ∧ (i 0).val < win1_9.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_9.index ⟨(i 0).val / 5000, _⟩ (1 : Fin 2) * 2 ≤ (i 1).val ∧ (i 1).val < win1_9.index ⟨(i 0).val / 5000, _⟩ (1 : Fin 2) * 2 + 2
      rw [e1]; omega

end Cert.Dense.R1

end
-- ==== Proof.KHost0.lean ====
/-
  THE BUFFERS THE FIRST PALLAS_CALL READS.

  When the first region is entered the buffers hold the launch memory folded through the first stretch of host
  operations. Read at the nine buffers the region's windows name, that fold is: the item aggregate and the item
  inverse-degree column exactly as the reference's own host operations compute them (the same operations on the
  same arguments), the upper and lower halves of the 256-row weight matrices (slices at row offsets 0 and 128),
  and five argument arrays untouched.
-/
import proofs.«102942_j13778255085862_2_alg».proof.Proof.Gen.KernelIdeal.Frame
import proofs.«102942_j13778255085862_2_alg».proof.Proof.Gen.ReferenceIdeal.Read
import proofs.«102942_j13778255085862_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Dense.KH0

open Idealize.ShloMosaic Idealize.ShloMosaic.TcCoe Idealize.SL.Sem Idealize.ShloMosaic.StableHlo Idealize.ShloMosaic.ValueIdx
open Cert.KernelIdeal Cert.KernelIdeal.Gen Cert.Dense

variable (m : (ℓ : Loc nD τ sig) → Buf (Elt Ideal) ℓ) (ρ : Dev nD → PrngReg)

/-- Rows 0 … 127 of a 256-row matrix, cut out as a unit-stride slice at offset (0, 0). -/
theorem slice_lo {n : Nat} (x : (⟨2, ![256, n]⟩ : Shape).Idx → EReal)
    (h : (⟨2, ![256, n]⟩ : Shape).Slices ![0, 0] ⟨2, ![128, n]⟩) :
    extractStridedSlice (⟨2, ![128, n]⟩ : Shape) ![0, 0] x h = rowsLo x := by
  funext i
  unfold extractStridedSlice rowsLo
  refine congrArg x (funext fun a => Fin.ext ?_)
  match a with
  | ⟨0, _⟩ => show 0 + (i 0).val = (i 0).val; omega
  | ⟨1, _⟩ => show 0 + (i 1).val = (i 1).val; omega

/-- Rows 128 … 255 of a 256-row matrix, cut out as a unit-stride slice at offset (128, 0). -/
theorem slice_hi {n : Nat} (x : (⟨2, ![256, n]⟩ : Shape).Idx → EReal)
    (h : (⟨2, ![256, n]⟩ : Shape).Slices ![128, 0] ⟨2, ![128, n]⟩) :
    extractStridedSlice (⟨2, ![128, n]⟩ : Shape) ![128, 0] x h = rowsHi x := by
  funext i
  unfold extractStridedSlice rowsHi
  refine congrArg x (funext fun a => Fin.ext ?_)
  match a with
  | ⟨0, _⟩ => show 128 + (i 0).val = 128 + (i 0).val; rfl
  | ⟨1, _⟩ => show 0 + (i 1).val = (i 1).val; omega

/-! ## The buffers the first region reads, as it is entered -/

set_option maxHeartbeats 4000000 in
theorem V1_v26 (c : Dev nD) : V1 m ρ c main_v26 = Cert.ReferenceIdeal.Read.val_main_v26 (F := Ideal) (m ((c : Thread nD τ).loc main_arg0)) (m ((c : Thread nD τ).loc main_arg12)) (m ((c : Thread nD τ).loc main_arg13)) := by
  show StableHlo.after hostOps0 (W0 m ρ c) (Proc.devRef .tc main_v26) = _
  after_results_simp <;> rfl

set_option maxHeartbeats 4000000 in
theorem V1_arg1 (c : Dev nD) : V1 m ρ c main_arg1 = (m ((c : Thread nD τ).loc main_arg1)) := by
  show StableHlo.after hostOps0 (W0 m ρ c) (Proc.devRef .tc main_arg1) = _
  after_results_simp <;> rfl

set_option maxHeartbeats 4000000 in
theorem V1_v46 (c : Dev nD) : V1 m ρ c main_v46 = Cert.ReferenceIdeal.Read.val_main_v27 (F := Ideal) (m ((c : Thread nD τ).loc main_arg13)) := by
  show StableHlo.after hostOps0 (W0 m ρ c) (Proc.devRef .tc main_v46) = _
  after_results_simp <;> rfl

set_option maxHeartbeats 4000000 in
theorem V1_arg2 (c : Dev nD) : V1 m ρ c main_arg2 = (m ((c : Thread nD τ).loc main_arg2)) := by
  show StableHlo.after hostOps0 (W0 m ρ c) (Proc.devRef .tc main_arg2) = _
  after_results_simp <;> rfl

set_option maxHeartbeats 4000000 in
theorem V1_arg3 (c : Dev nD) : V1 m ρ c main_arg3 = (m ((c : Thread nD τ).loc main_arg3)) := by
  show StableHlo.after hostOps0 (W0 m ρ c) (Proc.devRef .tc main_arg3) = _
  after_results_simp <;> rfl

set_option maxHeartbeats 4000000 in
theorem V1_v42 (c : Dev nD) : V1 m ρ c main_v42 = rowsLo (m ((c : Thread nD τ).loc main_arg8)) := by
  show StableHlo.after hostOps0 (W0 m ρ c) (Proc.devRef .tc main_v42) = _
  after_results_simp
  exact slice_lo _ _

set_option maxHeartbeats 4000000 in
theorem V1_v43 (c : Dev nD) : V1 m ρ c main_v43 = rowsHi (m ((c : Thread nD τ).loc main_arg8)) := by
  show StableHlo.after hostOps0 (W0 m ρ c) (Proc.devRef .tc main_v43) = _
  after_results_simp
  exact slice_hi _ _

set_option maxHeartbeats 4000000 in
theorem V1_arg9 (c : Dev nD) : V1 m ρ c main_arg9 = (m ((c : Thread nD τ).loc main_arg9)) := by
  show StableHlo.after hostOps0 (W0 m ρ c) (Proc.devRef .tc main_arg9) = _
  after_results_simp <;> rfl

set_option maxHeartbeats 4000000 in
theorem V1_v45 (c : Dev nD) : V1 m ρ c main_v45 = rowsHi (m ((c : Thread nD τ).loc main_arg10)) := by
  show StableHlo.after hostOps0 (W0 m ρ c) (Proc.devRef .tc main_v45) = _
  after_results_simp
  exact slice_hi _ _

end Cert.Dense.KH0

end
-- ==== Proof.KHost1.lean ====
/-
  THE BUFFERS THE SECOND PALLAS_CALL READS.

  Between the two regions one host operation runs (the user inverse-degree column), and the first region has
  written only its own output. So the nine buffers the second region's windows name hold what the first host
  stretch left: the user aggregate and the user inverse-degree column exactly as the reference's own host
  operations compute them, the halves of the 256-row weight matrices, and four argument arrays untouched.
-/
import proofs.«102942_j13778255085862_2_alg».proof.Proof.Gen.KernelIdeal.Frame
import proofs.«102942_j13778255085862_2_alg».proof.Proof.Gen.ReferenceIdeal.Read
import proofs.«102942_j13778255085862_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Dense.KH1

open Idealize.ShloMosaic Idealize.ShloMosaic.TcCoe Idealize.SL.Sem Idealize.ShloMosaic.StableHlo Idealize.ShloMosaic.ValueIdx
open Cert.KernelIdeal Cert.KernelIdeal.Gen Cert.Dense

variable (m : (ℓ : Loc nD τ sig) → Buf (Elt Ideal) ℓ) (ρ : Dev nD → PrngReg)

/-- Rows 0 … 127 of a 256-row matrix, cut out as a unit-stride slice at offset (0, 0). -/
theorem slice_lo' {n : Nat} (x : (⟨2, ![256, n]⟩ : Shape).Idx → EReal)
    (h : (⟨2, ![256, n]⟩ : Shape).Slices ![0, 0] ⟨2, ![128, n]⟩) :
    extractStridedSlice (⟨2, ![128, n]⟩ : Shape) ![0, 0] x h = rowsLo x := by
  funext i
  unfold extractStridedSlice rowsLo
  refine congrArg x (funext fun a => Fin.ext ?_)
  match a with
  | ⟨0, _⟩ => show 0 + (i 0).val = (i 0).val; omega
  | ⟨1, _⟩ => show 0 + (i 1).val = (i 1).val; omega

/-- Rows 128 … 255 of a 256-row matrix, cut out as a unit-stride slice at offset (128, 0). -/
theorem slice_hi' {n : Nat} (x : (⟨2, ![256, n]⟩ : Shape).Idx → EReal)
    (h : (⟨2, ![256, n]⟩ : Shape).Slices ![128, 0] ⟨2, ![128, n]⟩) :
    extractStridedSlice (⟨2, ![128, n]⟩ : Shape) ![128, 0] x h = rowsHi x := by
  funext i
  unfold extractStridedSlice rowsHi
  refine congrArg x (funext fun a => Fin.ext ?_)
  match a with
  | ⟨0, _⟩ => show 128 + (i 0).val = 128 + (i 0).val; rfl
  | ⟨1, _⟩ => show 0 + (i 1).val = (i 1).val; omega

/-! ## The buffers the second region reads, as it is entered -/

set_option maxHeartbeats 4000000 in
theorem V3_v39 (c : Dev nD) : V3 m ρ c main_v39 = Cert.ReferenceIdeal.Read.val_main_v46 (F := Ideal) (m ((c : Thread nD τ).loc main_arg1)) (m ((c : Thread nD τ).loc main_arg12)) (m ((c : Thread nD τ).loc main_arg13)) := by
  show StableHlo.after hostOps1 (W2 m ρ c) (Proc.devRef .tc main_v39) = _
  after_results
  rw [W2_of_ne m ρ c main_v39 (by decide)]
  after_results_simp <;> rfl

set_option maxHeartbeats 4000000 in
theorem V3_arg0 (c : Dev nD) : V3 m ρ c main_arg0 = (m ((c : Thread nD τ).loc main_arg0)) := by
  show StableHlo.after hostOps1 (W2 m ρ c) (Proc.devRef .tc main_arg0) = _
  after_results
  rw [W2_of_ne m ρ c main_arg0 (by decide)]
  after_results_simp <;> rfl

set_option maxHeartbeats 4000000 in
theorem V3_v48 (c : Dev nD) : V3 m ρ c main_v48 = Cert.ReferenceIdeal.Read.val_main_v47 (F := Ideal) (m ((c : Thread nD τ).loc main_arg12)) := by
  show StableHlo.after hostOps1 (W2 m ρ c) (Proc.devRef .tc main_v48) = _
  after_results
  rw [W2_of_ne m ρ c main_v6 (by decide)]
  after_results_simp <;> rfl

set_option maxHeartbeats 4000000 in
theorem V3_arg4 (c : Dev nD) : V3 m ρ c main_arg4 = (m ((c : Thread nD τ).loc main_arg4)) := by
  show StableHlo.after hostOps1 (W2 m ρ c) (Proc.devRef .tc main_arg4) = _
  after_results
  rw [W2_of_ne m ρ c main_arg4 (by decide)]
  after_results_simp <;> rfl

set_option maxHeartbeats 4000000 in
theorem V3_arg5 (c : Dev nD) : V3 m ρ c main_arg5 = (m ((c : Thread nD τ).loc main_arg5)) := by
  show StableHlo.after hostOps1 (W2 m ρ c) (Proc.devRef .tc main_arg5) = _
  after_results
  rw [W2_of_ne m ρ c main_arg5 (by decide)]
  after_results_simp <;> rfl

set_option maxHeartbeats 4000000 in
theorem V3_v40 (c : Dev nD) : V3 m ρ c main_v40 = rowsLo (m ((c : Thread nD τ).loc main_arg6)) := by
  show StableHlo.after hostOps1 (W2 m ρ c) (Proc.devRef .tc main_v40) = _
  after_results
  rw [W2_of_ne m ρ c main_v40 (by decide)]
  after_results_simp
  exact slice_lo' _ _

set_option maxHeartbeats 4000000 in
theorem V3_v41 (c : Dev nD) : V3 m ρ c main_v41 = rowsHi (m ((c : Thread nD τ).loc main_arg6)) := by
  show StableHlo.after hostOps1 (W2 m ρ c) (Proc.devRef .tc main_v41) = _
  after_results
  rw [W2_of_ne m ρ c main_v41 (by decide)]
  after_results_simp
  exact slice_hi' _ _

set_option maxHeartbeats 4000000 in
theorem V3_arg7 (c : Dev nD) : V3 m ρ c main_arg7 = (m ((c : Thread nD τ).loc main_arg7)) := by
  show StableHlo.after hostOps1 (W2 m ρ c) (Proc.devRef .tc main_arg7) = _
  after_results
  rw [W2_of_ne m ρ c main_arg7 (by decide)]
  after_results_simp <;> rfl

set_option maxHeartbeats 4000000 in
theorem V3_v44 (c : Dev nD) : V3 m ρ c main_v44 = rowsLo (m ((c : Thread nD τ).loc main_arg10)) := by
  show StableHlo.after hostOps1 (W2 m ρ c) (Proc.devRef .tc main_v44) = _
  after_results
  rw [W2_of_ne m ρ c main_v44 (by decide)]
  after_results_simp
  exact slice_lo' _ _

end Cert.Dense.KH1

end
-- ==== Proof.KFold.lean ====
/-
  FROM THE TWO REGIONS' OUTPUTS TO THE RESULT.

  The first region leaves the item nodes' scores in its output buffer, the second the user nodes' scores, each
  computed from the aggregates, inverse degrees and weight halves that the first host stretch left. Neither the one
  host operation between the regions nor the second region touches the first region's output, and nothing after
  the launch touches the index arguments or the bias. The last host stretch gathers two scores per edge, adds the
  bias and normalises: its result is the shared normalisation of the kernel program's edge scores, which are the
  reference's score stage; so the result buffer ends holding the reference's result stage of the arguments.
-/
import proofs.«102942_j13778255085862_2_alg».proof.Proof.Gen.KernelIdeal.Frame
import proofs.«102942_j13778255085862_2_alg».proof.Proof.Gen.ReferenceIdeal.Read
import proofs.«102942_j13778255085862_2_alg».proof.Proof.Spec
import proofs.«102942_j13778255085862_2_alg».proof.Proof.Tail
import proofs.«102942_j13778255085862_2_alg».proof.Proof.Bridge
import proofs.«102942_j13778255085862_2_alg».proof.Proof.Region0
import proofs.«102942_j13778255085862_2_alg».proof.Proof.Region1
import proofs.«102942_j13778255085862_2_alg».proof.Proof.KHost0
import proofs.«102942_j13778255085862_2_alg».proof.Proof.KHost1
import Idealize.ShloMosaic.Lib.StableHlo.Run

set_option maxRecDepth 16384

noncomputable section

namespace Cert.Dense.KF

open Idealize.ShloMosaic Idealize.ShloMosaic.TcCoe Idealize.SL.Sem Idealize.ShloMosaic.StableHlo Idealize.ShloMosaic.ValueIdx
open Cert.KernelIdeal Cert.KernelIdeal.Gen Cert.Dense

variable (m : (ℓ : Loc nD τ sig) → Buf (Elt Ideal) ℓ) (ρ : Dev nD → PrngReg)

/-- After the first region its output array holds every item node's scores, of the arguments. -/
theorem item_scores (c : Dev nD) : (dat0 (V1 m ρ) c).arrAt 9 cfg0.N
    = nodeScores (N := 50000) (Cert.ReferenceIdeal.Read.val_main_v26 (F := Ideal) (m ((c : Thread nD τ).loc main_arg0)) (m ((c : Thread nD τ).loc main_arg12)) (m ((c : Thread nD τ).loc main_arg13))) (m ((c : Thread nD τ).loc main_arg1)) (Cert.ReferenceIdeal.Read.val_main_v27 (F := Ideal) (m ((c : Thread nD τ).loc main_arg13))) (m ((c : Thread nD τ).loc main_arg2)) (m ((c : Thread nD τ).loc main_arg3))
      (rowsLo (m ((c : Thread nD τ).loc main_arg8))) (rowsHi (m ((c : Thread nD τ).loc main_arg8))) (m ((c : Thread nD τ).loc main_arg9)) (rowsHi (m ((c : Thread nD τ).loc main_arg10))) := by
  rw [R0.final (V1 m ρ) c, KH0.V1_v26, KH0.V1_arg1, KH0.V1_v46, KH0.V1_arg2, KH0.V1_arg3, KH0.V1_v42, KH0.V1_v43,
    KH0.V1_arg9, KH0.V1_v45]

/-- After the second region its output array holds every user node's scores, of the arguments. -/
theorem user_scores (c : Dev nD) : (dat1 (V3 m ρ) c).arrAt 9 cfg1.N
    = nodeScores (N := 100000) (Cert.ReferenceIdeal.Read.val_main_v46 (F := Ideal) (m ((c : Thread nD τ).loc main_arg1)) (m ((c : Thread nD τ).loc main_arg12)) (m ((c : Thread nD τ).loc main_arg13))) (m ((c : Thread nD τ).loc main_arg0)) (Cert.ReferenceIdeal.Read.val_main_v47 (F := Ideal) (m ((c : Thread nD τ).loc main_arg12))) (m ((c : Thread nD τ).loc main_arg4)) (m ((c : Thread nD τ).loc main_arg5))
      (rowsLo (m ((c : Thread nD τ).loc main_arg6))) (rowsHi (m ((c : Thread nD τ).loc main_arg6))) (m ((c : Thread nD τ).loc main_arg7)) (rowsLo (m ((c : Thread nD τ).loc main_arg10))) := by
  rw [R1.final (V3 m ρ) c, KH1.V3_v39, KH1.V3_arg0, KH1.V3_v48, KH1.V3_arg4, KH1.V3_arg5, KH1.V3_v40, KH1.V3_v41,
    KH1.V3_arg7, KH1.V3_v44]

/-- The second region's output buffer as the last host stretch finds it. -/
theorem W4_v49 (c : Dev nD) : W4 m ρ c (Proc.devRef .tc main_v49)
    = nodeScores (N := 100000) (Cert.ReferenceIdeal.Read.val_main_v46 (F := Ideal) (m ((c : Thread nD τ).loc main_arg1)) (m ((c : Thread nD τ).loc main_arg12)) (m ((c : Thread nD τ).loc main_arg13))) (m ((c : Thread nD τ).loc main_arg0)) (Cert.ReferenceIdeal.Read.val_main_v47 (F := Ideal) (m ((c : Thread nD τ).loc main_arg12))) (m ((c : Thread nD τ).loc main_arg4)) (m ((c : Thread nD τ).loc main_arg5))
      (rowsLo (m ((c : Thread nD τ).loc main_arg6))) (rowsHi (m ((c : Thread nD τ).loc main_arg6))) (m ((c : Thread nD τ).loc main_arg7)) (rowsLo (m ((c : Thread nD τ).loc main_arg10))) :=
  (W4_arr m ρ c 9).trans (user_scores m ρ c)

/-- The first region's output buffer as the last host stretch finds it: untouched since that region's exit. -/
theorem W4_v47 (c : Dev nD) : W4 m ρ c (Proc.devRef .tc main_v47)
    = nodeScores (N := 50000) (Cert.ReferenceIdeal.Read.val_main_v26 (F := Ideal) (m ((c : Thread nD τ).loc main_arg0)) (m ((c : Thread nD τ).loc main_arg12)) (m ((c : Thread nD τ).loc main_arg13))) (m ((c : Thread nD τ).loc main_arg1)) (Cert.ReferenceIdeal.Read.val_main_v27 (F := Ideal) (m ((c : Thread nD τ).loc main_arg13))) (m ((c : Thread nD τ).loc main_arg2)) (m ((c : Thread nD τ).loc main_arg3))
      (rowsLo (m ((c : Thread nD τ).loc main_arg8))) (rowsHi (m ((c : Thread nD τ).loc main_arg8))) (m ((c : Thread nD τ).loc main_arg9)) (rowsHi (m ((c : Thread nD τ).loc main_arg10))) := by
  rw [W4_of_ne m ρ c main_v47 (by decide)]
  show StableHlo.after hostOps1 (W2 m ρ c) (Proc.devRef .tc main_v47) = _
  after_results
  exact (W2_arr m ρ c 9).trans (item_scores m ρ c)

set_option maxHeartbeats 4000000 in
theorem W4_arg11 (c : Dev nD) : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results_simp <;> rfl

set_option maxHeartbeats 4000000 in
theorem W4_arg12 (c : Dev nD) : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results_simp <;> rfl

set_option maxHeartbeats 4000000 in
theorem W4_arg13 (c : Dev nD) : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results_simp <;> rfl

set_option maxHeartbeats 4000000 in
/-- What the last host stretch leaves in the result buffer: the shared normalisation of the edge scores. -/
theorem W5_tail (c : Dev nD) : W5 m ρ c (Proc.devRef .tc main_v78)
    = softmaxTail (F := Ideal) (scoreK (W4 m ρ c (Proc.devRef .tc main_v49)) (W4 m ρ c (Proc.devRef .tc main_v47))
        (W4 m ρ c (Proc.devRef .tc main_arg11)) (W4 m ρ c (Proc.devRef .tc main_arg12)) (W4 m ρ c (Proc.devRef .tc main_arg13))) := by
  show StableHlo.after hostOps2 (W4 m ρ c) (Proc.devRef .tc main_v78) = _
  after_results_simp <;> rfl

/-- THE RESULT BUFFER at the last boundary holds the reference's result stage of the arguments. -/
theorem W5_value (c : Dev nD) : W5 m ρ c (Proc.devRef .tc main_v78)
    = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W5_tail, W4_v49, W4_v47, W4_arg11, W4_arg12, W4_arg13, scoreK_eq, ← ref_tail]

end Cert.Dense.KF

end
-- ==== Proof.lean ====
/-
  A two-layer graph network on a bipartite user–item graph, scored per edge: the kernel program against its jnp
  reference, equal as extended reals.

  Both programs compute, on the host and by the same operations, the clamped inverse-square-root degrees and the
  degree-scaled neighbour aggregates of both node types. From there the reference computes per node type the
  hidden row relu((agg · invd) W + b), the output row concat(x, h) W' + b', gathers the two output rows of each
  edge's endpoints, joins them and multiplies by the 256-row predictor matrix. The kernel program computes in two
  pallas_calls, per node, the output row through its 128-row half of the predictor matrix — two numbers per node —
  and gathers those per edge. The two agree because a row joined from two 128-wide halves times a 256-row matrix
  is the sum of the halves times the matrix's halves: a regrouping of finite sums, valid on the extended reals
  with no finiteness assumption, so the precondition is never opened. Rounding to bf16 on the way into the
  kernel's matrix products is the identity at the ideal instance, and the kernel's products into a zero
  accumulator are the reference's contractions. Both programs end with the same normalisation of the edge scores,
  which is applied and never opened.

  The three frames: the word-level and the idealized kernel programs by their generated frame certificates, the
  reference by its generated run with the result dropped. The idealization rewrote no operation. The value claim:
  the kernel program's run with its result buffer read (KRun), that buffer's contents followed back through the
  last host stretch, the two regions and the first host stretch to the arguments (KFold, over the regions'
  values Region0 / Region1 and the payload read at an index), against the reference's generated run.
-/
import proofs.«102942_j13778255085862_2_alg».proof.Defs
import proofs.«102942_j13778255085862_2_alg».proof.Proof.Gen.Kernel
import proofs.«102942_j13778255085862_2_alg».proof.Proof.Gen.Kernel.Skeleton
import proofs.«102942_j13778255085862_2_alg».proof.Proof.Gen.Kernel.Launch
import proofs.«102942_j13778255085862_2_alg».proof.Proof.Gen.Kernel.Points
import proofs.«102942_j13778255085862_2_alg».proof.Proof.Gen.Kernel.Frame
import proofs.«102942_j13778255085862_2_alg».proof.Proof.Gen.KernelIdeal
import proofs.«102942_j13778255085862_2_alg».proof.Proof.Gen.KernelIdeal.Skeleton
import proofs.«102942_j13778255085862_2_alg».proof.Proof.Gen.KernelIdeal.Launch
import proofs.«102942_j13778255085862_2_alg».proof.Proof.Gen.KernelIdeal.Points
import proofs.«102942_j13778255085862_2_alg».proof.Proof.Gen.KernelIdeal.Frame
import proofs.«102942_j13778255085862_2_alg».proof.Proof.Gen.ReferenceIdeal
import proofs.«102942_j13778255085862_2_alg».proof.Proof.Gen.ReferenceIdeal.Run
import proofs.«102942_j13778255085862_2_alg».proof.Proof.Gen.ReferenceIdeal.Read
import proofs.«102942_j13778255085862_2_alg».proof.Proof.Gen.Pre_finite_inputs
import proofs.«102942_j13778255085862_2_alg».proof.Proof.KRun
import proofs.«102942_j13778255085862_2_alg».proof.Proof.KFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- Both programs end with the reference's result stage of the arguments: the kernel program by following its result
    buffer back to the arguments, the reference by its run; the arguments agree. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Dense.KF.W5_value m ρ c), (h c).2⟩) (Cert.Dense.K.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v95_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
